-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x24x10x128x128 : Shape := ⟨5, ![8, 24, 10, 128, 128]⟩
abbrev S8x24 : Shape := ⟨2, ![8, 24]⟩
abbrev S8x365x11 : Shape := ⟨3, ![8, 365, 11]⟩
abbrev S8x365 : Shape := ⟨2, ![8, 365]⟩
abbrev S_ : Shape := ⟨0, ![]⟩

class Facts : Prop where
  bcast_S_S8x24x10x128x128 : S_.BroadcastsInDim S8x24x10x128x128 (![] : Fin 0 → Fin S8x24x10x128x128.rank)
  reducesTo_S8x24x10x128x128_S_d0_1_2_3_4 : S8x24x10x128x128.ReducesTo [0, 1, 2, 3, 4] S_
  h_S_ : 0 < S_.numel
  bcast_S_S8x365x11 : S_.BroadcastsInDim S8x365x11 (![] : Fin 0 → Fin S8x365x11.rank)
  reducesTo_S8x365x11_S_d0_1_2 : S8x365x11.ReducesTo [0, 1, 2] S_

variable [Facts]

def fn {F : FTy → Type} [FloatOps F] (main_arg0 : FVec F S8x24x10x128x128 .f32) (main_arg1 : IVec S8x24 32) (main_arg2 : FVec F S8x365x11 .f32) (main_arg3 : IVec S8x365 32) : IVec S_ 1 :=
  let main_v0 : FVec F S8x24x10x128x128 .f32 := Host.absf main_arg0
  let main_cst : FVec F S_ .f32 := constant S_ .f32 0x7F800000#32
  let main_v1 : FVec F S8x24x10x128x128 .f32 := broadcastInDim S8x24x10x128x128 ![] bcast_S_S8x24x10x128x128 main_cst
  let main_v2 : IVec S8x24x10x128x128 1 := cmpf .olt main_v0 main_v1
  let main_c : IVec S_ 1 := constantI S_ 1 1#1
  let main_v3 : IVec S_ 1 := (fun x v => Host.reduce IntOp.andi x v reducesTo_S8x24x10x128x128_S_d0_1_2_3_4 h_S_) main_v2 main_c
  let main_v4 : FVec F S8x365x11 .f32 := Host.absf main_arg2
  let main_cst_0 : FVec F S_ .f32 := constant S_ .f32 0x7F800000#32
  let main_v5 : FVec F S8x365x11 .f32 := broadcastInDim S8x365x11 ![] bcast_S_S8x365x11 main_cst_0
  let main_v6 : IVec S8x365x11 1 := cmpf .olt main_v4 main_v5
  let main_c_1 : IVec S_ 1 := constantI S_ 1 1#1
  let main_v7 : IVec S_ 1 := (fun x v => Host.reduce IntOp.andi x v reducesTo_S8x365x11_S_d0_1_2 h_S_) main_v6 main_c_1
  let main_v8 : IVec S_ 1 := andi main_v3 main_v7
  main_v8
-- ==== Kernel.lean ====
abbrev S8x24x10x128x128 : Shape := ⟨5, ![8, 24, 10, 128, 128]⟩
abbrev S8x24 : Shape := ⟨2, ![8, 24]⟩
abbrev S8x365x11 : Shape := ⟨3, ![8, 365, 11]⟩
abbrev S8x365 : Shape := ⟨2, ![8, 365]⟩
abbrev S8x24x1 : Shape := ⟨3, ![8, 24, 1]⟩
abbrev S8x1x365 : Shape := ⟨3, ![8, 1, 365]⟩
abbrev S8x24x365 : Shape := ⟨3, ![8, 24, 365]⟩
abbrev S_ : Shape := ⟨0, ![]⟩
abbrev S1 : Shape := ⟨1, ![1]⟩
abbrev S1x1x1 : Shape := ⟨3, ![1, 1, 1]⟩
abbrev S8x24x11 : Shape := ⟨3, ![8, 24, 11]⟩
abbrev S192x10x128x128 : Shape := ⟨4, ![192, 10, 128, 128]⟩
abbrev S192x1x11 : Shape := ⟨3, ![192, 1, 11]⟩
abbrev S192x21x128x128 : Shape := ⟨4, ![192, 21, 128, 128]⟩
abbrev S8x10x128x128 : Shape := ⟨4, ![8, 10, 128, 128]⟩
abbrev S8x1x11 : Shape := ⟨3, ![8, 1, 11]⟩
abbrev S8x21x128x128 : Shape := ⟨4, ![8, 21, 128, 128]⟩
abbrev S8x1x128x128 : Shape := ⟨4, ![8, 1, 128, 128]⟩
abbrev S8x128x128 : Shape := ⟨3, ![8, 128, 128]⟩
abbrev S8x11 : Shape := ⟨2, ![8, 11]⟩
abbrev S8x1 : Shape := ⟨2, ![8, 1]⟩
abbrev S8 : Shape := ⟨1, ![8]⟩
abbrev S8x1x1 : Shape := ⟨3, ![8, 1, 1]⟩
abbrev S8x24x21x128x128 : Shape := ⟨5, ![8, 24, 21, 128, 128]⟩

abbrev nBuf : Space → Nat
  | .hbm => 48
  | .vmem => 6
  | .smem => 0
  | _ => 0

abbrev bufTy : (tb : Table) → Fin (tcTables nBuf tb) → BufTy
  | .hbm, ⟨0, _⟩ => ⟨S8x24x10x128x128, .f32⟩
  | .hbm, ⟨1, _⟩ => ⟨S8x24, .i32⟩
  | .hbm, ⟨2, _⟩ => ⟨S8x365x11, .f32⟩
  | .hbm, ⟨3, _⟩ => ⟨S8x365, .i32⟩
  | .hbm, ⟨4, _⟩ => ⟨S8x24x1, .i32⟩
  | .hbm, ⟨5, _⟩ => ⟨S8x1x365, .i32⟩
  | .hbm, ⟨6, _⟩ => ⟨S8x24x365, .i32⟩
  | .hbm, ⟨7, _⟩ => ⟨S8x24x365, .i32⟩
  | .hbm, ⟨8, _⟩ => ⟨S8x24x365, .i1⟩
  | .hbm, ⟨9, _⟩ => ⟨S8x24x365, .i32⟩
  | .hbm, ⟨10, _⟩ => ⟨S_, .i1⟩
  | .hbm, ⟨11, _⟩ => ⟨S_, .i32⟩
  | .hbm, ⟨12, _⟩ => ⟨S8x24, .i1⟩
  | .hbm, ⟨13, _⟩ => ⟨S8x24, .i32⟩
  | .hbm, ⟨14, _⟩ => ⟨S_, .i1⟩
  | .hbm, ⟨15, _⟩ => ⟨S8x24, .i1⟩
  | .hbm, ⟨16, _⟩ => ⟨S8x24x1, .i32⟩
  | .hbm, ⟨17, _⟩ => ⟨S_, .i32⟩
  | .hbm, ⟨18, _⟩ => ⟨S8x24x1, .i32⟩
  | .hbm, ⟨19, _⟩ => ⟨S8x24x1, .i1⟩
  | .hbm, ⟨20, _⟩ => ⟨S_, .i32⟩
  | .hbm, ⟨21, _⟩ => ⟨S8x24x1, .i32⟩
  | .hbm, ⟨22, _⟩ => ⟨S8x24x1, .i32⟩
  | .hbm, ⟨23, _⟩ => ⟨S8x24x1, .i32⟩
  | .hbm, ⟨24, _⟩ => ⟨S1, .i32⟩
  | .hbm, ⟨25, _⟩ => ⟨S_, .i32⟩
  | .hbm, ⟨26, _⟩ => ⟨S8x24x1, .i32⟩
  | .hbm, ⟨27, _⟩ => ⟨S8x24x1, .i1⟩
  | .hbm, ⟨28, _⟩ => ⟨S1x1x1, .i32⟩
  | .hbm, ⟨29, _⟩ => ⟨S8x24x1, .i32⟩
  | .hbm, ⟨30, _⟩ => ⟨S8x24x1, .i1⟩
  | .hbm, ⟨31, _⟩ => ⟨S8x24x1, .i1⟩
  | .hbm, ⟨32, _⟩ => ⟨S_, .i1⟩
  | .hbm, ⟨33, _⟩ => ⟨S8x24, .i1⟩
  | .hbm, ⟨34, _⟩ => ⟨S8x24x11, .f32⟩
  | .hbm, ⟨35, _⟩ => ⟨S8x24x11, .i1⟩
  | .hbm, ⟨36, _⟩ => ⟨S_, .f32⟩
  | .hbm, ⟨37, _⟩ => ⟨S8x24x11, .f32⟩
  | .hbm, ⟨38, _⟩ => ⟨S8x24x11, .f32⟩
  | .hbm, ⟨39, _⟩ => ⟨S8x24x1, .i1⟩
  | .hbm, ⟨40, _⟩ => ⟨S_, .f32⟩
  | .hbm, ⟨41, _⟩ => ⟨S8x24x11, .i1⟩
  | .hbm, ⟨42, _⟩ => ⟨S8x24x11, .f32⟩
  | .hbm, ⟨43, _⟩ => ⟨S8x24x11, .f32⟩
  | .hbm, ⟨44, _⟩ => ⟨S192x10x128x128, .f32⟩
  | .hbm, ⟨45, _⟩ => ⟨S192x1x11, .f32⟩
  | .hbm, ⟨46, _⟩ => ⟨S192x21x128x128, .f32⟩
  | .hbm, ⟨47, _⟩ => ⟨S8x24x21x128x128, .f32⟩
  | .local _ .vmem, ⟨0, _⟩ => ⟨S8x10x128x128, .f32⟩
  | .local _ .vmem, ⟨1, _⟩ => ⟨S8x10x128x128, .f32⟩
  | .local _ .vmem, ⟨2, _⟩ => ⟨S8x1x11, .f32⟩
  | .local _ .vmem, ⟨3, _⟩ => ⟨S8x1x11, .f32⟩
  | .local _ .vmem, ⟨4, _⟩ => ⟨S8x21x128x128, .f32⟩
  | .local _ .vmem, ⟨5, _⟩ => ⟨S8x21x128x128, .f32⟩
  | _, _ => ⟨S8x24x10x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_1 : Ref sig .tc := ⟨.hbm, 24, rfl⟩
abbrev main_call1_c_2 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_c_3 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x10x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x21x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8x24_S8x24x1_0_1 : S8x24.BroadcastsInDim S8x24x1 (![0, 1] : Fin 2 → Fin S8x24x1.rank)
  bcast_S8x365_S8x1x365_0_2 : S8x365.BroadcastsInDim S8x1x365 (![0, 2] : Fin 2 → Fin S8x1x365.rank)
  bcast_S8x24x1_S8x24x365_0_1_2 : S8x24x1.BroadcastsInDim S8x24x365 (![0, 1, 2] : Fin 3 → Fin S8x24x365.rank)
  bcast_S8x1x365_S8x24x365_0_1_2 : S8x1x365.BroadcastsInDim S8x24x365 (![0, 1, 2] : Fin 3 → Fin S8x24x365.rank)
  reducesTo_S8x24x365_S8x24_d2 : S8x24x365.ReducesTo [2] S8x24
  h_S_ : 0 < S_.numel
  bcast_S_S8x24x1 : S_.BroadcastsInDim S8x24x1 (![] : Fin 0 → Fin S8x24x1.rank)
  bcast_S1_S1x1x1_2 : S1.BroadcastsInDim S1x1x1 (![2] : Fin 1 → Fin S1x1x1.rank)
  bcast_S1x1x1_S8x24x1_0_1_2 : S1x1x1.BroadcastsInDim S8x24x1 (![0, 1, 2] : Fin 3 → Fin S8x24x1.rank)
  reducesTo_S8x24x1_S8x24_d2 : S8x24x1.ReducesTo [2] S8x24
  bcast_S8x24_S8x24x11_0_1 : S8x24.BroadcastsInDim S8x24x11 (![0, 1] : Fin 2 → Fin S8x24x11.rank)
  bcast_S_S8x24x11 : S_.BroadcastsInDim S8x24x11 (![] : Fin 0 → Fin S8x24x11.rank)
  bcast_S8x24x1_S8x24x11_0_1_2 : S8x24x1.BroadcastsInDim S8x24x11 (![0, 1, 2] : Fin 3 → Fin S8x24x11.rank)
  shapeCasts_S8x24x10x128x128_S192x10x128x128 : S8x24x10x128x128.ShapeCasts S192x10x128x128
  shapeCasts_S8x24x11_S192x1x11 : S8x24x11.ShapeCasts S192x1x11
  inb_S8x10x128x128_S8x1x128x128_0_0_0_0 : ∀ a, (![0, 0, 0, 0] : Fin 4 → Nat) a + S8x1x128x128.size a ≤ S8x10x128x128.size a
  h_S8x1x128x128 : 0 < S8x1x128x128.numel
  shapeCasts_S8x1x128x128_S8x128x128 : S8x1x128x128.ShapeCasts S8x128x128
  inb_S8x21x128x128_S8x1x128x128_0_0_0_0 : ∀ a, (![0, 0, 0, 0] : Fin 4 → Nat) a + S8x1x128x128.size a ≤ S8x21x128x128.size a
  shapeCasts_S8x128x128_S8x1x128x128 : S8x128x128.ShapeCasts S8x1x128x128
  inb_S8x10x128x128_S8x1x128x128_0_1_0_0 : ∀ a, (![0, 1, 0, 0] : Fin 4 → Nat) a + S8x1x128x128.size a ≤ S8x10x128x128.size a
  inb_S8x21x128x128_S8x1x128x128_0_1_0_0 : ∀ a, (![0, 1, 0, 0] : Fin 4 → Nat) a + S8x1x128x128.size a ≤ S8x21x128x128.size a
  inb_S8x10x128x128_S8x1x128x128_0_2_0_0 : ∀ a, (![0, 2, 0, 0] : Fin 4 → Nat) a + S8x1x128x128.size a ≤ S8x10x128x128.size a
  inb_S8x21x128x128_S8x1x128x128_0_2_0_0 : ∀ a, (![0, 2, 0, 0] : Fin 4 → Nat) a + S8x1x128x128.size a ≤ S8x21x128x128.size a
  inb_S8x10x128x128_S8x1x128x128_0_3_0_0 : ∀ a, (![0, 3, 0, 0] : Fin 4 → Nat) a + S8x1x128x128.size a ≤ S8x10x128x128.size a
  inb_S8x21x128x128_S8x1x128x128_0_3_0_0 : ∀ a, (![0, 3, 0, 0] : Fin 4 → Nat) a + S8x1x128x128.size a ≤ S8x21x128x128.size a
  inb_S8x10x128x128_S8x1x128x128_0_4_0_0 : ∀ a, (![0, 4, 0, 0] : Fin 4 → Nat) a + S8x1x128x128.size a ≤ S8x10x128x128.size a
  inb_S8x21x128x128_S8x1x128x128_0_4_0_0 : ∀ a, (![0, 4, 0, 0] : Fin 4 → Nat) a + S8x1x128x128.size a ≤ S8x21x128x128.size a
  inb_S8x10x128x128_S8x1x128x128_0_5_0_0 : ∀ a, (![0, 5, 0, 0] : Fin 4 → Nat) a + S8x1x128x128.size a ≤ S8x10x128x128.size a
  inb_S8x21x128x128_S8x1x128x128_0_5_0_0 : ∀ a, (![0, 5, 0, 0] : Fin 4 → Nat) a + S8x1x128x128.size a ≤ S8x21x128x128.size a
  inb_S8x10x128x128_S8x1x128x128_0_6_0_0 : ∀ a, (![0, 6, 0, 0] : Fin 4 → Nat) a + S8x1x128x128.size a ≤ S8x10x128x128.size a
  inb_S8x21x128x128_S8x1x128x128_0_6_0_0 : ∀ a, (![0, 6, 0, 0] : Fin 4 → Nat) a + S8x1x128x128.size a ≤ S8x21x128x128.size a
  inb_S8x10x128x128_S8x1x128x128_0_7_0_0 : ∀ a, (![0, 7, 0, 0] : Fin 4 → Nat) a + S8x1x128x128.size a ≤ S8x10x128x128.size a
  inb_S8x21x128x128_S8x1x128x128_0_7_0_0 : ∀ a, (![0, 7, 0, 0] : Fin 4 → Nat) a + S8x1x128x128.size a ≤ S8x21x128x128.size a
  inb_S8x10x128x128_S8x1x128x128_0_8_0_0 : ∀ a, (![0, 8, 0, 0] : Fin 4 → Nat) a + S8x1x128x128.size a ≤ S8x10x128x128.size a
  inb_S8x21x128x128_S8x1x128x128_0_8_0_0 : ∀ a, (![0, 8, 0, 0] : Fin 4 → Nat) a + S8x1x128x128.size a ≤ S8x21x128x128.size a
  inb_S8x10x128x128_S8x1x128x128_0_9_0_0 : ∀ a, (![0, 9, 0, 0] : Fin 4 → Nat) a + S8x1x128x128.size a ≤ S8x10x128x128.size a
  inb_S8x21x128x128_S8x1x128x128_0_9_0_0 : ∀ a, (![0, 9, 0, 0] : Fin 4 → Nat) a + S8x1x128x128.size a ≤ S8x21x128x128.size a
  inb_S8x1x11_S8x1x11_0_0_0 : ∀ a, (![0, 0, 0] : Fin 3 → Nat) a + S8x1x11.size a ≤ S8x1x11.size a
  h_S8x1x11 : 0 < S8x1x11.numel
  shapeCasts_S8x1x11_S8x11 : S8x1x11.ShapeCasts S8x11
  slices_S8x11_o0_0_S8x1 : S8x11.Slices ![0, 0] S8x1
  shapeCasts_S8x1_S8 : S8x1.ShapeCasts S8
  shapeCasts_S8_S8x1x1 : S8.ShapeCasts S8x1x1
  shapeCasts_S8x1x1_S8x1x1 : S8x1x1.ShapeCasts S8x1x1
  broadcasts_S8x1x1_S8x128x128 : S8x1x1.Broadcasts S8x128x128
  inb_S8x21x128x128_S8x1x128x128_0_10_0_0 : ∀ a, (![0, 10, 0, 0] : Fin 4 → Nat) a + S8x1x128x128.size a ≤ S8x21x128x128.size a
  slices_S8x11_o0_1_S8x1 : S8x11.Slices ![0, 1] S8x1
  inb_S8x21x128x128_S8x1x128x128_0_11_0_0 : ∀ a, (![0, 11, 0, 0] : Fin 4 → Nat) a + S8x1x128x128.size a ≤ S8x21x128x128.size a
  slices_S8x11_o0_2_S8x1 : S8x11.Slices ![0, 2] S8x1
  inb_S8x21x128x128_S8x1x128x128_0_12_0_0 : ∀ a, (![0, 12, 0, 0] : Fin 4 → Nat) a + S8x1x128x128.size a ≤ S8x21x128x128.size a
  slices_S8x11_o0_3_S8x1 : S8x11.Slices ![0, 3] S8x1
  inb_S8x21x128x128_S8x1x128x128_0_13_0_0 : ∀ a, (![0, 13, 0, 0] : Fin 4 → Nat) a + S8x1x128x128.size a ≤ S8x21x128x128.size a
  slices_S8x11_o0_4_S8x1 : S8x11.Slices ![0, 4] S8x1
  inb_S8x21x128x128_S8x1x128x128_0_14_0_0 : ∀ a, (![0, 14, 0, 0] : Fin 4 → Nat) a + S8x1x128x128.size a ≤ S8x21x128x128.size a
  slices_S8x11_o0_5_S8x1 : S8x11.Slices ![0, 5] S8x1
  inb_S8x21x128x128_S8x1x128x128_0_15_0_0 : ∀ a, (![0, 15, 0, 0] : Fin 4 → Nat) a + S8x1x128x128.size a ≤ S8x21x128x128.size a
  slices_S8x11_o0_6_S8x1 : S8x11.Slices ![0, 6] S8x1
  inb_S8x21x128x128_S8x1x128x128_0_16_0_0 : ∀ a, (![0, 16, 0, 0] : Fin 4 → Nat) a + S8x1x128x128.size a ≤ S8x21x128x128.size a
  slices_S8x11_o0_7_S8x1 : S8x11.Slices ![0, 7] S8x1
  inb_S8x21x128x128_S8x1x128x128_0_17_0_0 : ∀ a, (![0, 17, 0, 0] : Fin 4 → Nat) a + S8x1x128x128.size a ≤ S8x21x128x128.size a
  slices_S8x11_o0_8_S8x1 : S8x11.Slices ![0, 8] S8x1
  inb_S8x21x128x128_S8x1x128x128_0_18_0_0 : ∀ a, (![0, 18, 0, 0] : Fin 4 → Nat) a + S8x1x128x128.size a ≤ S8x21x128x128.size a
  slices_S8x11_o0_9_S8x1 : S8x11.Slices ![0, 9] S8x1
  inb_S8x21x128x128_S8x1x128x128_0_19_0_0 : ∀ a, (![0, 19, 0, 0] : Fin 4 → Nat) a + S8x1x128x128.size a ≤ S8x21x128x128.size a
  slices_S8x11_o0_10_S8x1 : S8x11.Slices ![0, 10] S8x1
  inb_S8x21x128x128_S8x1x128x128_0_20_0_0 : ∀ a, (![0, 20, 0, 0] : Fin 4 → Nat) a + S8x1x128x128.size a ≤ S8x21x128x128.size a
  shapeCasts_S192x21x128x128_S8x24x21x128x128 : S192x21x128x128.ShapeCasts S8x24x21x128x128
  gather_S8x365x11_S8x24x1_S8x24x11_2_1_0_0_1_2_1111_wf : GatherDims.WF S8x365x11 S8x24x1 S8x24x11 [2] [1] [0] [1] [0] 2 ![1, 1, 11]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x10x128x128.size a ≤ S192x10x128x128.size a
  hwx0_0 : ∀ i : grid0.Coords, EltTy.bits .f32 = 32 ∨ (Rect.block (s := S192x10x128x128) S8x10x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x11.size a ≤ S192x1x11.size a
  hwx0_1 : ∀ i : grid0.Coords, EltTy.bits .f32 = 32 ∨ (Rect.block (s := S192x1x11) S8x1x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x21x128x128.size a ≤ S192x21x128x128.size a
  hwx0_2 : ∀ i : grid0.Coords, EltTy.bits .f32 = 32 ∨ (Rect.block (s := S192x21x128x128) S8x21x128x128.size (cc0_transform_2 i) (hinb0_2 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x365x11_S8x24x1_S8x24x11_2_1_0_0_1_2_1111 : GatherDims S8x365x11 S8x24x1 S8x24x11 where
  offsetDims := [2]
  collapsedSliceDims := [1]
  operandBatchingDims := [0]
  startIndicesBatchingDims := [0]
  startIndexMap := [1]
  indexVectorDim := 2
  sliceSizes := ![1, 1, 11]
  wf := gather_S8x365x11_S8x24x1_S8x24x11_2_1_0_0_1_2_1111_wf

abbrev win0_0 : Pipeline.Window sig grid0 :=
  Pipeline.Window.ofSpec (Memref.whole main_v11) S8x10x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8x1x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8x21x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x24x10x128x128 : Shape := ⟨5, ![8, 24, 10, 128, 128]⟩
abbrev S8x24 : Shape := ⟨2, ![8, 24]⟩
abbrev S8x365x11 : Shape := ⟨3, ![8, 365, 11]⟩
abbrev S8x365 : Shape := ⟨2, ![8, 365]⟩
abbrev S8x24x1 : Shape := ⟨3, ![8, 24, 1]⟩
abbrev S8x1x365 : Shape := ⟨3, ![8, 1, 365]⟩
abbrev S8x24x365 : Shape := ⟨3, ![8, 24, 365]⟩
abbrev S_ : Shape := ⟨0, ![]⟩
abbrev S1 : Shape := ⟨1, ![1]⟩
abbrev S1x1x1 : Shape := ⟨3, ![1, 1, 1]⟩
abbrev S8x24x11 : Shape := ⟨3, ![8, 24, 11]⟩
abbrev S8x24x11x1x1 : Shape := ⟨5, ![8, 24, 11, 1, 1]⟩
abbrev S8x24x11x128x128 : Shape := ⟨5, ![8, 24, 11, 128, 128]⟩
abbrev S8x24x21x128x128 : Shape := ⟨5, ![8, 24, 21, 128, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x24x10x128x128, .f32⟩
  | .hbm, ⟨1, _⟩ => ⟨S8x24, .i32⟩
  | .hbm, ⟨2, _⟩ => ⟨S8x365x11, .f32⟩
  | .hbm, ⟨3, _⟩ => ⟨S8x365, .i32⟩
  | .hbm, ⟨4, _⟩ => ⟨S8x24x1, .i32⟩
  | .hbm, ⟨5, _⟩ => ⟨S8x1x365, .i32⟩
  | .hbm, ⟨6, _⟩ => ⟨S8x24x365, .i32⟩
  | .hbm, ⟨7, _⟩ => ⟨S8x24x365, .i32⟩
  | .hbm, ⟨8, _⟩ => ⟨S8x24x365, .i1⟩
  | .hbm, ⟨9, _⟩ => ⟨S8x24x365, .i32⟩
  | .hbm, ⟨10, _⟩ => ⟨S_, .i1⟩
  | .hbm, ⟨11, _⟩ => ⟨S_, .i32⟩
  | .hbm, ⟨12, _⟩ => ⟨S8x24, .i1⟩
  | .hbm, ⟨13, _⟩ => ⟨S8x24, .i32⟩
  | .hbm, ⟨14, _⟩ => ⟨S_, .i1⟩
  | .hbm, ⟨15, _⟩ => ⟨S8x24, .i1⟩
  | .hbm, ⟨16, _⟩ => ⟨S8x24x1, .i32⟩
  | .hbm, ⟨17, _⟩ => ⟨S_, .i32⟩
  | .hbm, ⟨18, _⟩ => ⟨S8x24x1, .i32⟩
  | .hbm, ⟨19, _⟩ => ⟨S8x24x1, .i1⟩
  | .hbm, ⟨20, _⟩ => ⟨S_, .i32⟩
  | .hbm, ⟨21, _⟩ => ⟨S8x24x1, .i32⟩
  | .hbm, ⟨22, _⟩ => ⟨S8x24x1, .i32⟩
  | .hbm, ⟨23, _⟩ => ⟨S8x24x1, .i32⟩
  | .hbm, ⟨24, _⟩ => ⟨S1, .i32⟩
  | .hbm, ⟨25, _⟩ => ⟨S_, .i32⟩
  | .hbm, ⟨26, _⟩ => ⟨S8x24x1, .i32⟩
  | .hbm, ⟨27, _⟩ => ⟨S8x24x1, .i1⟩
  | .hbm, ⟨28, _⟩ => ⟨S1x1x1, .i32⟩
  | .hbm, ⟨29, _⟩ => ⟨S8x24x1, .i32⟩
  | .hbm, ⟨30, _⟩ => ⟨S8x24x1, .i1⟩
  | .hbm, ⟨31, _⟩ => ⟨S8x24x1, .i1⟩
  | .hbm, ⟨32, _⟩ => ⟨S_, .i1⟩
  | .hbm, ⟨33, _⟩ => ⟨S8x24, .i1⟩
  | .hbm, ⟨34, _⟩ => ⟨S8x24x11, .f32⟩
  | .hbm, ⟨35, _⟩ => ⟨S8x24x11, .i1⟩
  | .hbm, ⟨36, _⟩ => ⟨S_, .f32⟩
  | .hbm, ⟨37, _⟩ => ⟨S8x24x11, .f32⟩
  | .hbm, ⟨38, _⟩ => ⟨S8x24x11, .f32⟩
  | .hbm, ⟨39, _⟩ => ⟨S8x24x1, .i1⟩
  | .hbm, ⟨40, _⟩ => ⟨S_, .f32⟩
  | .hbm, ⟨41, _⟩ => ⟨S8x24x11, .i1⟩
  | .hbm, ⟨42, _⟩ => ⟨S8x24x11, .f32⟩
  | .hbm, ⟨43, _⟩ => ⟨S8x24x11, .f32⟩
  | .hbm, ⟨44, _⟩ => ⟨S8x24x11x1x1, .f32⟩
  | .hbm, ⟨45, _⟩ => ⟨S8x24x11x128x128, .f32⟩
  | .hbm, ⟨46, _⟩ => ⟨S8x24x21x128x128, .f32⟩
  | _, _ => ⟨S8x24x10x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_c : Ref sig .tc := ⟨.hbm, 10, rfl⟩
abbrev main_call0_c_0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_1 : Ref sig .tc := ⟨.hbm, 24, rfl⟩
abbrev main_call1_c_2 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_c_3 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_call2_v0 : Ref sig .tc := ⟨.hbm, 41, rfl⟩
abbrev main_call2_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩

abbrev nD : Nat := 1
abbrev τ : Topo := Topo.v7x

variable {F : FTy → Type} [FloatOps F]

class Facts₀ : Prop where
  bcast_S8x24_S8x24x1_0_1 : S8x24.BroadcastsInDim S8x24x1 (![0, 1] : Fin 2 → Fin S8x24x1.rank)
  bcast_S8x365_S8x1x365_0_2 : S8x365.BroadcastsInDim S8x1x365 (![0, 2] : Fin 2 → Fin S8x1x365.rank)
  bcast_S8x24x1_S8x24x365_0_1_2 : S8x24x1.BroadcastsInDim S8x24x365 (![0, 1, 2] : Fin 3 → Fin S8x24x365.rank)
  bcast_S8x1x365_S8x24x365_0_1_2 : S8x1x365.BroadcastsInDim S8x24x365 (![0, 1, 2] : Fin 3 → Fin S8x24x365.rank)
  reducesTo_S8x24x365_S8x24_d2 : S8x24x365.ReducesTo [2] S8x24
  h_S_ : 0 < S_.numel
  bcast_S_S8x24x1 : S_.BroadcastsInDim S8x24x1 (![] : Fin 0 → Fin S8x24x1.rank)
  bcast_S1_S1x1x1_2 : S1.BroadcastsInDim S1x1x1 (![2] : Fin 1 → Fin S1x1x1.rank)
  bcast_S1x1x1_S8x24x1_0_1_2 : S1x1x1.BroadcastsInDim S8x24x1 (![0, 1, 2] : Fin 3 → Fin S8x24x1.rank)
  reducesTo_S8x24x1_S8x24_d2 : S8x24x1.ReducesTo [2] S8x24
  bcast_S8x24_S8x24x11_0_1 : S8x24.BroadcastsInDim S8x24x11 (![0, 1] : Fin 2 → Fin S8x24x11.rank)
  bcast_S_S8x24x11 : S_.BroadcastsInDim S8x24x11 (![] : Fin 0 → Fin S8x24x11.rank)
  bcast_S8x24x1_S8x24x11_0_1_2 : S8x24x1.BroadcastsInDim S8x24x11 (![0, 1, 2] : Fin 3 → Fin S8x24x11.rank)
  bcast_S8x24x11_S8x24x11x1x1_0_1_2 : S8x24x11.BroadcastsInDim S8x24x11x1x1 (![0, 1, 2] : Fin 3 → Fin S8x24x11x1x1.rank)
  bcast_S8x24x11x1x1_S8x24x11x128x128_0_1_2_3_4 : S8x24x11x1x1.BroadcastsInDim S8x24x11x128x128 (![0, 1, 2, 3, 4] : Fin 5 → Fin S8x24x11x128x128.rank)
  concatenates_S8x24x10x128x128_S8x24x11x128x128_S8x24x21x128x128_d2 : Shape.Concatenates [S8x24x10x128x128, S8x24x11x128x128] S8x24x21x128x128 2
  gather_S8x365x11_S8x24x1_S8x24x11_2_1_0_0_1_2_1111_wf : GatherDims.WF S8x365x11 S8x24x1 S8x24x11 [2] [1] [0] [1] [0] 2 ![1, 1, 11]

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S8x365x11_S8x24x1_S8x24x11_2_1_0_0_1_2_1111 : GatherDims S8x365x11 S8x24x1 S8x24x11 where
  offsetDims := [2]
  collapsedSliceDims := [1]
  operandBatchingDims := [0]
  startIndicesBatchingDims := [0]
  startIndexMap := [1]
  indexVectorDim := 2
  sliceSizes := ![1, 1, 11]
  wf := gather_S8x365x11_S8x24x1_S8x24x11_2_1_0_0_1_2_1111_wf

class Facts : Prop extends Facts₀ where

variable [Facts]
-- ==== Proof.Spec.lean ====
/-
  The value both programs compute, stated once over literal shapes and imported by every other module.

  For each batch element b and acquisition t the satellite date is compared with the 365 climate dates; the
  first matching day (index 0 and the pad value -1000 when no day matches) selects one row of 11 climate
  features.  That selection, "clim", is a function of the three small arguments alone and is never opened: both
  programs apply the same operations to the same arguments, so it is carried as one term.

  The result has 21 channels per (b, t): channels 0..9 are the satellite image's own channels at the same pixel,
  channels 10..20 hold climate feature ch - 10 of that (b, t), the same value at every pixel.
  "fused" states this over the five axes [8, 24, 21, 128, 128]; "stacked" states the same layout over a stack of
  N rows [N, 21, 128, 128] built from [N, 10, 128, 128] and [N, 1, 11] (a block of 8 rows, or all 192 = 8 * 24
  rows, row b * 24 + t being the pair (b, t)).
-/
import Idealize.ShloMosaic.PureOps
import Idealize.ShloMosaic.PureOps.Ideal
import Idealize.ShloMosaic.Lib.ValueIdx

noncomputable section

namespace Cert.Fuse

open Idealize.ShloMosaic Idealize.ShloMosaic.ValueIdx

abbrev T_ : Shape := ⟨0, ![]⟩
abbrev T1 : Shape := ⟨1, ![1]⟩
abbrev T1x1x1 : Shape := ⟨3, ![1, 1, 1]⟩
abbrev T8x24 : Shape := ⟨2, ![8, 24]⟩
abbrev T8x365 : Shape := ⟨2, ![8, 365]⟩
abbrev T8x24x1 : Shape := ⟨3, ![8, 24, 1]⟩
abbrev T8x1x365 : Shape := ⟨3, ![8, 1, 365]⟩
abbrev T8x24x365 : Shape := ⟨3, ![8, 24, 365]⟩
abbrev T8x365x11 : Shape := ⟨3, ![8, 365, 11]⟩
abbrev T8x24x11 : Shape := ⟨3, ![8, 24, 11]⟩
abbrev T8x24x10x128x128 : Shape := ⟨5, ![8, 24, 10, 128, 128]⟩
abbrev T8x24x21x128x128 : Shape := ⟨5, ![8, 24, 21, 128, 128]⟩

variable {F : FTy → Type} [FloatOps F]

/-! ## The matched climate row -/

/-- The arg-max step on (flag, day) pairs: keep the pair with the greater flag, and on equal flags the smaller day. -/
def firstDay : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

/-- One whole row of 11 features taken from day idx(b, t) of batch element b. -/
def dayRow : GatherDims T8x365x11 T8x24x1 T8x24x11 where
  offsetDims := [2]
  collapsedSliceDims := [1]
  operandBatchingDims := [0]
  startIndicesBatchingDims := [0]
  startIndexMap := [1]
  indexVectorDim := 2
  sliceSizes := ![1, 1, 11]
  wf := by decide

theorem bc_8x24_8x24x1 : T8x24.BroadcastsInDim T8x24x1 (![0, 1] : Fin 2 → Fin T8x24x1.rank) := by decide
theorem bc_8x365_8x1x365 : T8x365.BroadcastsInDim T8x1x365 (![0, 2] : Fin 2 → Fin T8x1x365.rank) := by decide
theorem bc_8x24x1_8x24x365 : T8x24x1.BroadcastsInDim T8x24x365 (![0, 1, 2] : Fin 3 → Fin T8x24x365.rank) := by decide
theorem bc_8x1x365_8x24x365 : T8x1x365.BroadcastsInDim T8x24x365 (![0, 1, 2] : Fin 3 → Fin T8x24x365.rank) := by decide
theorem red_8x24x365 : T8x24x365.ReducesTo [2] T8x24 := by decide
theorem pos_ : 0 < T_.numel := by decide
theorem bc__8x24x1 : T_.BroadcastsInDim T8x24x1 (![] : Fin 0 → Fin T8x24x1.rank) := by decide
theorem bc_1_1x1x1 : T1.BroadcastsInDim T1x1x1 (![2] : Fin 1 → Fin T1x1x1.rank) := by decide
theorem bc_1x1x1_8x24x1 : T1x1x1.BroadcastsInDim T8x24x1 (![0, 1, 2] : Fin 3 → Fin T8x24x1.rank) := by decide
theorem red_8x24x1 : T8x24x1.ReducesTo [2] T8x24 := by decide
theorem bc_8x24_8x24x11 : T8x24.BroadcastsInDim T8x24x11 (![0, 1] : Fin 2 → Fin T8x24x11.rank) := by decide
theorem bc__8x24x11 : T_.BroadcastsInDim T8x24x11 (![] : Fin 0 → Fin T8x24x11.rank) := by decide
theorem bc_8x24x1_8x24x11 : T8x24x1.BroadcastsInDim T8x24x11 (![0, 1, 2] : Fin 3 → Fin T8x24x11.rank) := by decide

/-- The climate features matched to each satellite date: for (b, t) the row of the first climate day whose date
    equals the satellite date, and -1000 in every feature when there is none.  The day index is normalised and
    range-checked as an indexing operation does (a negative index counts from the end; outside 0..364 the row is
    the not-a-number word), which never applies here since the index found lies in 0..364. -/
def clim (dsat : IVec T8x24 32) (feat : FVec F T8x365x11 .f32) (dclim : IVec T8x365 32) : FVec F T8x24x11 .f32 :=
  let v0 : IVec T8x24x1 32 := broadcastInDim T8x24x1 ![0, 1] bc_8x24_8x24x1 dsat
  let v1 : IVec T8x1x365 32 := broadcastInDim T8x1x365 ![0, 2] bc_8x365_8x1x365 dclim
  let v2 : IVec T8x24x365 32 := broadcastInDim T8x24x365 ![0, 1, 2] bc_8x24x1_8x24x365 v0
  let v3 : IVec T8x24x365 32 := broadcastInDim T8x24x365 ![0, 1, 2] bc_8x1x365_8x24x365 v1
  let v4 : IVec T8x24x365 1 := cmpi .eq v2 v3
  let days : IVec T8x24x365 32 := iotaInDim T8x24x365 32 2
  let f0 : IVec T_ 1 := constantI T_ 1 0#1
  let d0 : IVec T_ 32 := constantI T_ 32 0#32
  let v5 : IVec T8x24 32 := fun j => (Host.reduce2 firstDay v4 days f0 d0 red_8x24x365 pos_ j).2
  let g0 : IVec T_ 1 := constantI T_ 1 0#1
  let v6 : IVec T8x24 1 := Host.reduce IntOp.ori v4 g0 red_8x24x365 pos_
  let v7 : IVec T8x24x1 32 := broadcastInDim T8x24x1 ![0, 1] bc_8x24_8x24x1 v5
  let z : IVec T_ 32 := constantI T_ 32 0#32
  let t0 : IVec T8x24x1 32 := broadcastInDim T8x24x1 ![] bc__8x24x1 z
  let t1 : IVec T8x24x1 1 := cmpi .slt v7 t0
  let n : IVec T_ 32 := constantI T_ 32 365#32
  let t2 : IVec T8x24x1 32 := broadcastInDim T8x24x1 ![] bc__8x24x1 n
  let t3 : IVec T8x24x1 32 := addi v7 t2
  let t4 : IVec T8x24x1 32 := select t1 t3 v7
  let last : IVec T1 32 := constantI T1 32 364#32
  let z' : IVec T_ 32 := constantI T_ 32 0#32
  let t5 : IVec T8x24x1 32 := broadcastInDim T8x24x1 ![] bc__8x24x1 z'
  let t6 : IVec T8x24x1 1 := cmpi .sge t4 t5
  let t7 : IVec T1x1x1 32 := broadcastInDim T1x1x1 ![2] bc_1_1x1x1 last
  let t8 : IVec T8x24x1 32 := broadcastInDim T8x24x1 ![0, 1, 2] bc_1x1x1_8x24x1 t7
  let t9 : IVec T8x24x1 1 := cmpi .sle t4 t8
  let t10 : IVec T8x24x1 1 := andi t6 t9
  let one : IVec T_ 1 := constantI T_ 1 1#1
  let t11 : IVec T8x24 1 := Host.reduce IntOp.andi t10 one red_8x24x1 pos_
  let t12 : FVec F T8x24x11 .f32 := Host.gather dayRow feat t4
  let t13 : IVec T8x24x11 1 := broadcastInDim T8x24x11 ![0, 1] bc_8x24_8x24x11 t11
  let nan : FVec F T_ .f32 := constant T_ .f32 0x7FC00000#32
  let t14 : FVec F T8x24x11 .f32 := broadcastInDim T8x24x11 ![] bc__8x24x11 nan
  let v8 : FVec F T8x24x11 .f32 := select t13 t12 t14
  let v9 : IVec T8x24x1 1 := broadcastInDim T8x24x1 ![0, 1] bc_8x24_8x24x1 v6
  let padv : FVec F T_ .f32 := constant T_ .f32 0xC47A0000#32
  let w0 : IVec T8x24x11 1 := broadcastInDim T8x24x11 ![0, 1, 2] bc_8x24x1_8x24x11 v9
  let w1 : FVec F T8x24x11 .f32 := broadcastInDim T8x24x11 ![] bc__8x24x11 padv
  select w0 v8 w1

/-! ## The fused array -/

/-- Entry (b, t, ch, h, w) of the result: the satellite channel for ch < 10, climate feature ch - 10 otherwise. -/
def fusedAt (sat : FVec F T8x24x10x128x128 .f32) (cv : FVec F T8x24x11 .f32)
    (b : Fin 8) (t : Fin 24) (ch : Fin 21) (h w : Fin 128) : F .f32 :=
  if hc : ch.val < 10 then sat (ix5 b t (⟨ch.val, hc⟩ : Fin 10) h w)
  else cv (ix3 b t (⟨ch.val - 10, by have := ch.isLt; omega⟩ : Fin 11))

/-- The result as one array of the satellite images and the matched climate rows. -/
def fused (sat : FVec F T8x24x10x128x128 .f32) (cv : FVec F T8x24x11 .f32) : FVec F T8x24x21x128x128 .f32 :=
  fun i => fusedAt sat cv (i 0) (i 1) (i 2) (i 3) (i 4)

theorem fused_ix (sat : FVec F T8x24x10x128x128 .f32) (cv : FVec F T8x24x11 .f32)
    (b : Fin 8) (t : Fin 24) (ch : Fin 21) (h w : Fin 128) :
    fused sat cv (ix5 b t ch h w) = fusedAt sat cv b t ch h w := rfl

/-- The same layout over a stack of N rows: row n, channel ch, pixel (h, w). -/
def stackedAt {N : Nat} (x0 : FVec F ⟨4, ![N, 10, 128, 128]⟩ .f32) (x1 : FVec F ⟨3, ![N, 1, 11]⟩ .f32)
    (n : Fin N) (ch : Fin 21) (h w : Fin 128) : F .f32 :=
  if hc : ch.val < 10 then x0 (ix4 n (⟨ch.val, hc⟩ : Fin 10) h w)
  else x1 (ix3 n (0 : Fin 1) (⟨ch.val - 10, by have := ch.isLt; omega⟩ : Fin 11))

def stacked {N : Nat} (x0 : FVec F ⟨4, ![N, 10, 128, 128]⟩ .f32) (x1 : FVec F ⟨3, ![N, 1, 11]⟩ .f32) :
    FVec F ⟨4, ![N, 21, 128, 128]⟩ .f32 :=
  fun y => stackedAt x0 x1 (y 0) (y 1) (y 2) (y 3)

theorem stacked_ix {N : Nat} (x0 : FVec F ⟨4, ![N, 10, 128, 128]⟩ .f32) (x1 : FVec F ⟨3, ![N, 1, 11]⟩ .f32)
    (n : Fin N) (ch : Fin 21) (h w : Fin 128) :
    stacked x0 x1 (ix4 n ch h w) = stackedAt x0 x1 n ch h w := rfl

end Cert.Fuse

end
-- ==== Proof.Rows.lean ====
/-
  Two facts about the layout, over literal shapes, with no program in sight.

  1. A block of 8 consecutive rows of the 192-row stack is the stack of the corresponding blocks: if x0, x1 are rows
     k*8 .. k*8+7 of X0, X1, then entry (p, ch, h, w) of the stacked block is entry (k*8 + p, ch, h, w) of the stacked
     whole.
  2. Row n = b*24 + t of the stack is the pair (b, t): reading the 192-row stack of the reshaped arguments through the
     reshape [192,21,128,128] -> [8,24,21,128,128] gives the fused array.  A reshape keeps row-major positions, and the
     row-major position of (b, t, ch, h, w) in [8,24,21,128,128] is that of (b*24 + t, ch, h, w) in [192,21,128,128];
     likewise for the two inputs.
-/
import proofs.«152365_j56023553409154_2_alg».proof.Proof.Spec
import Idealize.ShloMosaic.Lib.Pipeline.Value

noncomputable section

namespace Cert.Fuse

open Idealize.ShloMosaic Idealize.ShloMosaic.ValueIdx

variable {F : FTy → Type} [FloatOps F]

abbrev T192x10x128x128 : Shape := ⟨4, ![192, 10, 128, 128]⟩
abbrev T192x1x11 : Shape := ⟨3, ![192, 1, 11]⟩
abbrev T192x21x128x128 : Shape := ⟨4, ![192, 21, 128, 128]⟩

/-- Row k*8 + p of 192, for block k of 24 and row p of 8. -/
def rowOf (k : Fin 24) (p : Fin 8) : Fin 192 := ⟨k.val * 8 + p.val, by have := k.isLt; have := p.isLt; omega⟩

/-- Row b*24 + t of 192, for batch element b of 8 and acquisition t of 24. -/
def pairRow (b : Fin 8) (t : Fin 24) : Fin 192 := ⟨b.val * 24 + t.val, by have := b.isLt; have := t.isLt; omega⟩

theorem stackedAt_block (X0 : FVec F T192x10x128x128 .f32) (X1 : FVec F T192x1x11 .f32)
    (x0 : FVec F ⟨4, ![8, 10, 128, 128]⟩ .f32) (x1 : FVec F ⟨3, ![8, 1, 11]⟩ .f32) (k : Fin 24)
    (h0 : ∀ (p : Fin 8) (c : Fin 10) (h w : Fin 128), x0 (ix4 p c h w) = X0 (ix4 (rowOf k p) c h w))
    (h1 : ∀ (p : Fin 8) (f : Fin 11), x1 (ix3 p (0 : Fin 1) f) = X1 (ix3 (rowOf k p) (0 : Fin 1) f))
    (p : Fin 8) (ch : Fin 21) (h w : Fin 128) :
    stackedAt x0 x1 p ch h w = stackedAt X0 X1 (rowOf k p) ch h w := by
  unfold stackedAt
  by_cases hc : ch.val < 10
  · rw [dif_pos hc, dif_pos hc]; exact h0 p ⟨ch.val, hc⟩ h w
  · rw [dif_neg hc, dif_neg hc]; exact h1 p _

theorem unstack_eq (sat : FVec F T8x24x10x128x128 .f32) (cv : FVec F T8x24x11 .f32)
    (h1 : T8x24x10x128x128.ShapeCasts T192x10x128x128) (h2 : T8x24x11.ShapeCasts T192x1x11)
    (h3 : T192x21x128x128.ShapeCasts T8x24x21x128x128) :
    shapeCast T8x24x21x128x128 (stacked (N := 192) (shapeCast T192x10x128x128 sat h1) (shapeCast T192x1x11 cv h2)) h3
      = fused sat cv := by
  funext i
  obtain ⟨b, t, ch, h, w, rfl⟩ : ∃ (b : Fin 8) (t : Fin 24) (ch : Fin 21) (h w : Fin 128), i = ix5 b t ch h w :=
    ⟨i 0, i 1, i 2, i 3, i 4, eq_ix5 i⟩
  refine (shapeCast_apply _ h3 (ix5 b t ch h w) (ix4 (pairRow b t) ch h w) ?_).trans ?_
  · rw [Shape.rowMajor_val_four, Shape.rowMajor_val_five]; rfl
  rw [stacked_ix, fused_ix]
  unfold stackedAt fusedAt
  by_cases hc : ch.val < 10
  · rw [dif_pos hc, dif_pos hc]
    refine shapeCast_apply sat h1 (ix4 (pairRow b t) (⟨ch.val, hc⟩ : Fin 10) h w) (ix5 b t (⟨ch.val, hc⟩ : Fin 10) h w) ?_
    rw [Shape.rowMajor_val_four, Shape.rowMajor_val_five]; rfl
  · rw [dif_neg hc, dif_neg hc]
    refine shapeCast_apply cv h2 (ix3 (pairRow b t) (0 : Fin 1) _) (ix3 b t _) ?_
    rw [Shape.rowMajor_val_three, Shape.rowMajor_val_three]
    show (b.val * 24 + t.val) * 11 + (ch.val - 10) = ((b.val * 24 + t.val) * 1 + 0) * 11 + (ch.val - 10)
    omega

end Cert.Fuse

end
-- ==== Proof.KHost.lean ====
/-
  What the region finds in its two input arrays, as functions of the arguments.

  Before the region the program computes the matched climate rows from the three small arguments (the operations of
  Cert.Fuse.clim, one for one), and lays both inputs out as 192 rows: the satellite tensor [8,24,10,128,128] as
  [192,10,128,128] and the climate rows [8,24,11] as [192,1,11].  Folding the operations over any starting contents W,
  the two arrays hold exactly those reshapes of W's argument buffers.
-/
import proofs.«152365_j56023553409154_2_alg».proof.Proof.Gen.KernelIdeal.Frame
import proofs.«152365_j56023553409154_2_alg».proof.Proof.Spec
import Idealize.ShloMosaic.Lib.StableHlo.Run

noncomputable section

namespace Cert.KernelIdeal.HostSide

open Idealize.ShloMosaic Idealize.SL.Sem Idealize.ShloMosaic.StableHlo Cert.KernelIdeal Cert.KernelIdeal.Gen

variable {F : FTy → Type} [FloatOps F]

-- the reductions and the gather are carried as they are printed: the equation never looks inside them
attribute [local irreducible] Host.reduce Host.reduce2 Host.gather in
set_option maxRecDepth 8192 in
set_option maxHeartbeats 1000000 in
/-- The climate input of the region: the matched climate rows, as 192 rows of one row of 11 features. -/
theorem climRows_eq (W : Valuation τ sig (Elt F)) :
    after (List.flatten [hostOps0, hostOps0_1, hostOps0_2, hostOps0_3, hostOps0_4, hostOps0_5, hostOps0_6]) W (Proc.devRef .tc main_v12)
      = shapeCast S192x1x11 (Cert.Fuse.clim (F := F) (W (Proc.devRef .tc main_arg1)) (W (Proc.devRef .tc main_arg2)) (W (Proc.devRef .tc main_arg3)))
          shapeCasts_S8x24x11_S192x1x11 := by
  simp only [hostOps0, hostOps0_1, hostOps0_2, hostOps0_3, hostOps0_4, hostOps0_5, hostOps0_6, List.flatten_cons, List.flatten_nil,
    List.append_nil, List.cons_append, List.nil_append]
  after_results_simp
  rfl

attribute [local irreducible] Host.reduce Host.reduce2 Host.gather in
set_option maxRecDepth 8192 in
set_option maxHeartbeats 1000000 in
/-- The satellite input of the region: the satellite tensor as 192 rows. -/
theorem satRows_eq (W : Valuation τ sig (Elt F)) :
    after (List.flatten [hostOps0, hostOps0_1, hostOps0_2, hostOps0_3, hostOps0_4, hostOps0_5, hostOps0_6]) W (Proc.devRef .tc main_v11)
      = shapeCast S192x10x128x128 (W (Proc.devRef .tc main_arg0)) shapeCasts_S8x24x10x128x128_S192x10x128x128 := by
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.HostSide

end
-- ==== Proof.KBlock.lean ====
/-
  What the kernel body leaves in its output block, in closed form.

  The body handles a block of 8 rows: an image block x0 : [8, 10, 128, 128] and a row block x1 : [8, 1, 11], and
  fills the block [8, 21, 128, 128] by 21 stores, one per channel, each through the rectangle of all rows and
  pixels of that channel.  Channel c < 10 receives channel c of x0 (loaded as [8, 1, 128, 128], cast to
  [8, 128, 128] and back).  Channel 10 + k receives feature k of x1: the row block cast to [8, 11], column k
  sliced out, cast to [8] and [8, 1, 1], broadcast over the 128 x 128 pixels and cast to [8, 1, 128, 128].

  The 21 rectangles tile the block, so the block after the body is determined piece by piece: it is the stacked
  layout of the shared specification at N = 8 — entry (p, ch, h, w) is x0 (p, ch, h, w) for ch < 10 and
  x1 (p, 0, ch - 10) otherwise.  Two lemmas read the two kinds of payload at an index (p, 0, h, w) given by its
  coordinates; one lemma places a store rectangle's index in the block; the theorem collects the 21 pieces.
-/
import proofs.«152365_j56023553409154_2_alg».proof.Proof.Gen.KernelIdeal.Frame
import proofs.«152365_j56023553409154_2_alg».proof.Proof.Spec
import Idealize.ShloMosaic.Lib.Pipeline.Value
import Idealize.ShloMosaic.Lib.ValueIdx
import Idealize.ShloMosaic.Lib.ValueLayout

noncomputable section

namespace Cert.KernelIdeal.Block

open Idealize.ShloMosaic Idealize.ShloMosaic.ValueIdx Cert.KernelIdeal

variable {F : FTy → Type} [FloatOps F]

/-- The store rectangle of channel ch — one channel of the block [8, 21, 128, 128], every row and pixel — places
    its own index (p, 0, h, w) at (p, ch, h, w). -/
theorem emb_store (ch : Nat) (hch : ch < 21)
    (inb : ∀ a, (![0, ch, 0, 0] : Fin 4 → Nat) a + S8x1x128x128.size a ≤ S8x21x128x128.size a)
    (p : Fin 8) (u : Fin 1) (h w : Fin 128) :
    (Rect.unit (s := S8x21x128x128) ![0, ch, 0, 0] S8x1x128x128.size inb).emb (ix4 p u h w)
      = ix4 p (⟨ch, hch⟩ : Fin 21) h w := by
  have hu : u.val = 0 := by have := u.isLt; omega
  funext a
  match a with
  | ⟨0, _⟩ => exact Fin.ext (by show 0 + 1 * p.val = p.val; omega)
  | ⟨1, _⟩ => exact Fin.ext (by show ch + 1 * u.val = ch; omega)
  | ⟨2, _⟩ => exact Fin.ext (by show 0 + 1 * h.val = h.val; omega)
  | ⟨3, _⟩ => exact Fin.ext (by show 0 + 1 * w.val = w.val; omega)

/-- A copied channel: channel c of the input block, loaded as [8, 1, 128, 128] and cast to [8, 128, 128] and back,
    reads at (p, 0, h, w) the input at (p, c, h, w). -/
theorem copy_at (x0 : Vec F S8x10x128x128 .f32) (c : Nat) (hc : c < 10)
    (inb : ∀ a, (![0, c, 0, 0] : Fin 4 → Nat) a + S8x1x128x128.size a ≤ S8x10x128x128.size a)
    (h1 : S8x1x128x128.ShapeCasts S8x128x128) (h2 : S8x128x128.ShapeCasts S8x1x128x128)
    (p : Fin 8) (u : Fin 1) (h w : Fin 128) :
    shapeCast S8x1x128x128 (shapeCast S8x128x128
        (View.ld x0 (Rect.unit (s := S8x10x128x128) ![0, c, 0, 0] S8x1x128x128.size inb)) h1) h2 (ix4 p u h w)
      = x0 (ix4 p (⟨c, hc⟩ : Fin 10) h w) := by
  have hu : u.val = 0 := by have := u.isLt; omega
  rw [shapeCast_shapeCast]
  show x0 _ = x0 _
  refine congrArg x0 ?_
  funext a
  match a with
  | ⟨0, _⟩ => exact Fin.ext (by show 0 + 1 * p.val = p.val; omega)
  | ⟨1, _⟩ => exact Fin.ext (by show c + 1 * u.val = c; omega)
  | ⟨2, _⟩ => exact Fin.ext (by show 0 + 1 * h.val = h.val; omega)
  | ⟨3, _⟩ => exact Fin.ext (by show 0 + 1 * w.val = w.val; omega)

/-- A climate channel: feature k of the row block [8, 1, 11] — cast to [8, 11], column k sliced out, cast to [8] and
    to [8, 1, 1], broadcast over the 128 x 128 pixels and cast to [8, 1, 128, 128] — reads at (p, 0, h, w) the
    feature (p, 0, k), whatever the pixel. -/
theorem clim_at (x1 : Vec F S8x1x11 .f32) (k : Nat) (hk : k < 11)
    (inb : ∀ a, (![0, 0, 0] : Fin 3 → Nat) a + S8x1x11.size a ≤ S8x1x11.size a)
    (hs : S8x11.Slices ![0, k] S8x1)
    (c0 : S8x1x11.ShapeCasts S8x11) (c1 : S8x1.ShapeCasts S8) (c2 : S8.ShapeCasts S8x1x1)
    (c3 : S8x1x1.ShapeCasts S8x1x1) (b : S8x1x1.Broadcasts S8x128x128) (c4 : S8x128x128.ShapeCasts S8x1x128x128)
    (p : Fin 8) (u : Fin 1) (h w : Fin 128) :
    shapeCast S8x1x128x128 (broadcastTo S8x128x128 (shapeCast S8x1x1 (shapeCast S8x1x1 (shapeCast S8
        (extractStridedSlice S8x1 ![0, k]
          (shapeCast S8x11 (View.ld x1 (Rect.unit (s := S8x1x11) ![0, 0, 0] S8x1x11.size inb)) c0) hs) c1) c2) c3) b) c4
        (ix4 p u h w)
      = x1 (ix3 p (0 : Fin 1) (⟨k, hk⟩ : Fin 11)) := by
  have hu : u.val = 0 := by have := u.isLt; omega
  -- [8, 1, 128, 128] at (p, 0, h, w) is [8, 128, 128] at (p, h, w)
  refine (shapeCast_apply _ _ (ix4 p u h w) (ix3 p h w) (by
    rw [Shape.rowMajor_val_three, Shape.rowMajor_val_four]
    show (p.val * 128 + h.val) * 128 + w.val = ((p.val * 1 + u.val) * 128 + h.val) * 128 + w.val
    omega)).trans ?_
  -- the broadcast reads the unit axes at 0
  refine (broadcastTo_apply _ _ (ix3 p h w) (ix3 p (0 : Fin 1) (0 : Fin 1)) (fun a => match a with
    | ⟨0, _⟩ => by show p.val = if (8 : Nat) = 1 then 0 else p.val; rfl
    | ⟨1, _⟩ => by show (0 : Nat) = if (1 : Nat) = 1 then 0 else h.val; rfl
    | ⟨2, _⟩ => by show (0 : Nat) = if (1 : Nat) = 1 then 0 else w.val; rfl)).trans ?_
  -- the cast of [8, 1, 1] to itself
  refine (shapeCast_apply _ _ _ (ix3 p (0 : Fin 1) (0 : Fin 1)) rfl).trans ?_
  -- [8, 1, 1] at (p, 0, 0) is [8] at p
  refine (shapeCast_apply _ _ _ (ix1 p) (by
    rw [Shape.rowMajor_val_one, Shape.rowMajor_val_three]
    show p.val = (p.val * 1 + 0) * 1 + 0
    omega)).trans ?_
  -- [8] at p is [8, 1] at (p, 0)
  refine (shapeCast_apply _ _ _ (ix2 p (0 : Fin 1)) (by
    rw [Shape.rowMajor_val_two, Shape.rowMajor_val_one]
    show p.val * 1 + 0 = p.val
    omega)).trans ?_
  -- the slice at column k
  refine (extractStridedSlice_apply _ _ _ _ (ix2 p (⟨k, hk⟩ : Fin 11)) (fun a => match a with
    | ⟨0, _⟩ => by show p.val = 0 + p.val; omega
    | ⟨1, _⟩ => by show k = k + 0; omega)).trans ?_
  -- [8, 11] at (p, k) is [8, 1, 11] at (p, 0, k)
  refine (shapeCast_apply _ _ _ (ix3 p (0 : Fin 1) (⟨k, hk⟩ : Fin 11)) (by
    rw [Shape.rowMajor_val_three, Shape.rowMajor_val_two]
    show (p.val * 1 + 0) * 11 + k = p.val * 11 + k
    omega)).trans ?_
  -- the load of the whole block
  show x1 _ = x1 _
  refine congrArg x1 ?_
  funext a
  match a with
  | ⟨0, _⟩ => exact Fin.ext (by show 0 + 1 * p.val = p.val; omega)
  | ⟨1, _⟩ => exact Fin.ext (by show 0 + 1 * 0 = 0; omega)
  | ⟨2, _⟩ => exact Fin.ext (by show 0 + 1 * k = k; omega)

/-- What a copied channel's store leaves under its rectangle is the stacked layout there: channel c < 10 of the
    result is channel c of the input block. -/
theorem piece_copy (x0 : Vec F S8x10x128x128 .f32) (x1 : Vec F S8x1x11 .f32) (c : Nat) (hc : c < 10)
    (inb0 : ∀ a, (![0, c, 0, 0] : Fin 4 → Nat) a + S8x1x128x128.size a ≤ S8x10x128x128.size a)
    (inb1 : ∀ a, (![0, c, 0, 0] : Fin 4 → Nat) a + S8x1x128x128.size a ≤ S8x21x128x128.size a)
    (h1 : S8x1x128x128.ShapeCasts S8x128x128) (h2 : S8x128x128.ShapeCasts S8x1x128x128)
    (x : S8x1x128x128.Idx) :
    shapeCast S8x1x128x128 (shapeCast S8x128x128
        (View.ld x0 (Rect.unit (s := S8x10x128x128) ![0, c, 0, 0] S8x1x128x128.size inb0)) h1) h2 x
      = Cert.Fuse.stacked (F := F) (N := 8) x0 x1
          ((Rect.unit (s := S8x21x128x128) ![0, c, 0, 0] S8x1x128x128.size inb1).emb x) := by
  obtain ⟨p, u, h, w, rfl⟩ : ∃ p u h w, x = ix4 p u h w := ⟨x 0, x 1, x 2, x 3, eq_ix4 x⟩
  refine (copy_at x0 c hc inb0 h1 h2 p u h w).trans ?_
  refine Eq.trans ?_ (congrArg (Cert.Fuse.stacked (F := F) (N := 8) x0 x1) (emb_store c (by omega) inb1 p u h w)).symm
  show _ = Cert.Fuse.stackedAt (F := F) (N := 8) x0 x1 p (⟨c, by omega⟩ : Fin 21) h w
  unfold Cert.Fuse.stackedAt
  split
  · rfl
  · rename_i hn; exact absurd hc hn

/-- What a climate channel's store leaves under its rectangle is the stacked layout there: channel 10 + k of the
    result is feature k of the row, at every pixel. -/
theorem piece_clim (x0 : Vec F S8x10x128x128 .f32) (x1 : Vec F S8x1x11 .f32) (ch k : Nat) (hch : ch = 10 + k) (hk : k < 11)
    (inb : ∀ a, (![0, 0, 0] : Fin 3 → Nat) a + S8x1x11.size a ≤ S8x1x11.size a)
    (inb1 : ∀ a, (![0, ch, 0, 0] : Fin 4 → Nat) a + S8x1x128x128.size a ≤ S8x21x128x128.size a)
    (hs : S8x11.Slices ![0, k] S8x1)
    (c0 : S8x1x11.ShapeCasts S8x11) (c1 : S8x1.ShapeCasts S8) (c2 : S8.ShapeCasts S8x1x1)
    (c3 : S8x1x1.ShapeCasts S8x1x1) (b : S8x1x1.Broadcasts S8x128x128) (c4 : S8x128x128.ShapeCasts S8x1x128x128)
    (x : S8x1x128x128.Idx) :
    shapeCast S8x1x128x128 (broadcastTo S8x128x128 (shapeCast S8x1x1 (shapeCast S8x1x1 (shapeCast S8
        (extractStridedSlice S8x1 ![0, k]
          (shapeCast S8x11 (View.ld x1 (Rect.unit (s := S8x1x11) ![0, 0, 0] S8x1x11.size inb)) c0) hs) c1) c2) c3) b) c4 x
      = Cert.Fuse.stacked (F := F) (N := 8) x0 x1
          ((Rect.unit (s := S8x21x128x128) ![0, ch, 0, 0] S8x1x128x128.size inb1).emb x) := by
  obtain ⟨p, u, h, w, rfl⟩ : ∃ p u h w, x = ix4 p u h w := ⟨x 0, x 1, x 2, x 3, eq_ix4 x⟩
  refine (clim_at x1 k hk inb hs c0 c1 c2 c3 b c4 p u h w).trans ?_
  refine Eq.trans ?_ (congrArg (Cert.Fuse.stacked (F := F) (N := 8) x0 x1) (emb_store ch (by omega) inb1 p u h w)).symm
  show _ = Cert.Fuse.stackedAt (F := F) (N := 8) x0 x1 p (⟨ch, by omega⟩ : Fin 21) h w
  unfold Cert.Fuse.stackedAt
  split
  · rename_i hlt; exact absurd (show ch < 10 from hlt) (by omega)
  · exact congrArg (fun z : Fin 11 => x1 (ix3 p (0 : Fin 1) z)) (Fin.ext (by show k = ch - 10; omega))

/-- What the kernel body leaves in its output block is the stacked layout of its two input blocks: the 21 stores tile
    the block [8, 21, 128, 128] channel by channel, and each store's payload is the stacked layout under its rectangle —
    a copied channel of the image block for channels 0..9, a feature of the row block at every pixel for channels
    10..20. -/
theorem out_eq (x0 : Vec F S8x10x128x128 .f32) (x1 : Vec F S8x1x11 .f32) :
    Gen.out0_2 (F := F) x0 x1 = Cert.Fuse.stacked (F := F) (N := 8) x0 x1 := by
  funext y
  unfold Gen.out0_2
  refine View.canon_apply_of_pieces (Val := Elt F) (S := S8x21x128x128) (e := .f32)
    (Cert.Fuse.stacked (F := F) (N := 8) x0 x1) _ ?_ y
    (Gen.cover0_2 _ _ _ _ _ _ _ _ _ _ _ _ _ _ _ _ _ _ _ _ _ y)
  intro pc hpc x
  rcases List.mem_cons.mp hpc with rfl | hpc
  · exact piece_clim x0 x1 20 10 rfl (by decide) Gen.inb_S8x1x11_S8x1x11_0_0_0 Gen.inb_S8x21x128x128_S8x1x128x128_0_20_0_0
      Gen.slices_S8x11_o0_10_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 19 9 rfl (by decide) Gen.inb_S8x1x11_S8x1x11_0_0_0 Gen.inb_S8x21x128x128_S8x1x128x128_0_19_0_0
      Gen.slices_S8x11_o0_9_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 18 8 rfl (by decide) Gen.inb_S8x1x11_S8x1x11_0_0_0 Gen.inb_S8x21x128x128_S8x1x128x128_0_18_0_0
      Gen.slices_S8x11_o0_8_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 17 7 rfl (by decide) Gen.inb_S8x1x11_S8x1x11_0_0_0 Gen.inb_S8x21x128x128_S8x1x128x128_0_17_0_0
      Gen.slices_S8x11_o0_7_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 16 6 rfl (by decide) Gen.inb_S8x1x11_S8x1x11_0_0_0 Gen.inb_S8x21x128x128_S8x1x128x128_0_16_0_0
      Gen.slices_S8x11_o0_6_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 15 5 rfl (by decide) Gen.inb_S8x1x11_S8x1x11_0_0_0 Gen.inb_S8x21x128x128_S8x1x128x128_0_15_0_0
      Gen.slices_S8x11_o0_5_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 14 4 rfl (by decide) Gen.inb_S8x1x11_S8x1x11_0_0_0 Gen.inb_S8x21x128x128_S8x1x128x128_0_14_0_0
      Gen.slices_S8x11_o0_4_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 13 3 rfl (by decide) Gen.inb_S8x1x11_S8x1x11_0_0_0 Gen.inb_S8x21x128x128_S8x1x128x128_0_13_0_0
      Gen.slices_S8x11_o0_3_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 12 2 rfl (by decide) Gen.inb_S8x1x11_S8x1x11_0_0_0 Gen.inb_S8x21x128x128_S8x1x128x128_0_12_0_0
      Gen.slices_S8x11_o0_2_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 11 1 rfl (by decide) Gen.inb_S8x1x11_S8x1x11_0_0_0 Gen.inb_S8x21x128x128_S8x1x128x128_0_11_0_0
      Gen.slices_S8x11_o0_1_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_clim x0 x1 10 0 rfl (by decide) Gen.inb_S8x1x11_S8x1x11_0_0_0 Gen.inb_S8x21x128x128_S8x1x128x128_0_10_0_0
      Gen.slices_S8x11_o0_0_S8x1 Gen.shapeCasts_S8x1x11_S8x11 Gen.shapeCasts_S8x1_S8 Gen.shapeCasts_S8_S8x1x1
      Gen.shapeCasts_S8x1x1_S8x1x1 Gen.broadcasts_S8x1x1_S8x128x128 Gen.shapeCasts_S8x128x128_S8x1x128x128 x
  rcases List.mem_cons.mp hpc with rfl | hpc
  · exact piece_copy x0 x1 9 (by decide) Gen.inb_S8x10x128x128_S8x1x128x128_0_9_0_0 Gen.inb_S8x21x128x128_S8x1x128x128_0_9_0_0
      Gen.shapeCasts_S8x1x128x128_S8x128x128 Gen.shapeCasts_S8x128x128_S8x1x128x128 x
  rcases List.mem_cons.mp hpc with rfl | hpc
  · exact piece_copy x0 x1 8 (by decide) Gen.inb_S8x10x128x128_S8x1x128x128_0_8_0_0 Gen.inb_S8x21x128x128_S8x1x128x128_0_8_0_0
      Gen.shapeCasts_S8x1x128x128_S8x128x128 Gen.shapeCasts_S8x128x128_S8x1x128x128 x
  rcases List.mem_cons.mp hpc with rfl | hpc
  · exact piece_copy x0 x1 7 (by decide) Gen.inb_S8x10x128x128_S8x1x128x128_0_7_0_0 Gen.inb_S8x21x128x128_S8x1x128x128_0_7_0_0
      Gen.shapeCasts_S8x1x128x128_S8x128x128 Gen.shapeCasts_S8x128x128_S8x1x128x128 x
  rcases List.mem_cons.mp hpc with rfl | hpc
  · exact piece_copy x0 x1 6 (by decide) Gen.inb_S8x10x128x128_S8x1x128x128_0_6_0_0 Gen.inb_S8x21x128x128_S8x1x128x128_0_6_0_0
      Gen.shapeCasts_S8x1x128x128_S8x128x128 Gen.shapeCasts_S8x128x128_S8x1x128x128 x
  rcases List.mem_cons.mp hpc with rfl | hpc
  · exact piece_copy x0 x1 5 (by decide) Gen.inb_S8x10x128x128_S8x1x128x128_0_5_0_0 Gen.inb_S8x21x128x128_S8x1x128x128_0_5_0_0
      Gen.shapeCasts_S8x1x128x128_S8x128x128 Gen.shapeCasts_S8x128x128_S8x1x128x128 x
  rcases List.mem_cons.mp hpc with rfl | hpc
  · exact piece_copy x0 x1 4 (by decide) Gen.inb_S8x10x128x128_S8x1x128x128_0_4_0_0 Gen.inb_S8x21x128x128_S8x1x128x128_0_4_0_0
      Gen.shapeCasts_S8x1x128x128_S8x128x128 Gen.shapeCasts_S8x128x128_S8x1x128x128 x
  rcases List.mem_cons.mp hpc with rfl | hpc
  · exact piece_copy x0 x1 3 (by decide) Gen.inb_S8x10x128x128_S8x1x128x128_0_3_0_0 Gen.inb_S8x21x128x128_S8x1x128x128_0_3_0_0
      Gen.shapeCasts_S8x1x128x128_S8x128x128 Gen.shapeCasts_S8x128x128_S8x1x128x128 x
  rcases List.mem_cons.mp hpc with rfl | hpc
  · exact piece_copy x0 x1 2 (by decide) Gen.inb_S8x10x128x128_S8x1x128x128_0_2_0_0 Gen.inb_S8x21x128x128_S8x1x128x128_0_2_0_0
      Gen.shapeCasts_S8x1x128x128_S8x128x128 Gen.shapeCasts_S8x128x128_S8x1x128x128 x
  rcases List.mem_cons.mp hpc with rfl | hpc
  · exact piece_copy x0 x1 1 (by decide) Gen.inb_S8x10x128x128_S8x1x128x128_0_1_0_0 Gen.inb_S8x21x128x128_S8x1x128x128_0_1_0_0
      Gen.shapeCasts_S8x1x128x128_S8x128x128 Gen.shapeCasts_S8x128x128_S8x1x128x128 x
  rcases List.mem_cons.mp hpc with rfl | hpc
  · exact piece_copy x0 x1 0 (by decide) Gen.inb_S8x10x128x128_S8x1x128x128_0_0_0_0 Gen.inb_S8x21x128x128_S8x1x128x128_0_0_0_0
      Gen.shapeCasts_S8x1x128x128_S8x128x128 Gen.shapeCasts_S8x128x128_S8x1x128x128 x
  nomatch hpc

end Cert.KernelIdeal.Block

end
-- ==== Proof.KStack.lean ====
/-
  From blocks to the array.  The grid has 24 points; point t stages rows t*8 .. t*8+7 of the two 192-row inputs and
  writes rows t*8 .. t*8+7 of the 192-row output, whole along the other axes.  What the body leaves in the output block is
  the stack of its two input blocks (satellite channels 0..9, then the 11 climate features broadcast over the pixels), so
  what point t writes back is block t of the 192-row stack of the two input arrays; the 24 blocks cover the output, row r
  by point r / 8, so after the region the output array is that stack.
-/
import proofs.«152365_j56023553409154_2_alg».proof.Proof.Gen.KernelIdeal.Frame
import proofs.«152365_j56023553409154_2_alg».proof.Proof.Spec
import proofs.«152365_j56023553409154_2_alg».proof.Proof.Rows
import proofs.«152365_j56023553409154_2_alg».proof.Proof.KBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Stack

open Cert.KernelIdeal Cert.KernelIdeal.Gen

variable (m : (ℓ : Loc nD τ sig) → Buf (Elt Ideal) ℓ) (ρ : Dev nD → PrngReg)

/-- The three index maps, decided over the 24 points: point t stages block t along the row axis of each array, and
    block 0 along every other axis. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- A grid point as a block number below 24. -/
def pt (t : Fin cfg0.N) : Fin 24 := ⟨t.val, by have h := t.isLt; have hN : cfg0.N = 24 := N_0; omega⟩

/-- The satellite block at point t is rows t*8 .. t*8+7 of the 192-row satellite array. -/
theorem iblk0_apply (c : Dev nD) (t : Fin cfg0.N) (p : Fin 8) (ch : Fin 10) (h w : Fin 128) :
    (iblk m c 0 t : Vec Ideal S8x10x128x128 .f32) (ix4 p ch h w)
      = (V m c main_v11 : S192x10x128x128.Idx → Elt Ideal .f32) (ix4 (Cert.Fuse.rowOf (pt t) p) ch h w) := by
  obtain ⟨e0, e1, e2, e3, -⟩ := idx_facts t
  unfold iblk
  rw [View.read_apply]
  show (V m c main_v11 : S192x10x128x128.Idx → Elt Ideal .f32) _ = _
  refine congrArg (V m c main_v11 : S192x10x128x128.Idx → Elt Ideal .f32) (funext fun a => Fin.ext ?_)
  match a with
  | ⟨0, _⟩ => show win0_0.index t (0 : Fin 4) * 8 + 1 * p.val = t.val * 8 + p.val; rw [e0]; omega
  | ⟨1, _⟩ => show win0_0.index t (1 : Fin 4) * 10 + 1 * ch.val = ch.val; rw [e1]; omega
  | ⟨2, _⟩ => show win0_0.index t (2 : Fin 4) * 128 + 1 * h.val = h.val; rw [e2]; omega
  | ⟨3, _⟩ => show win0_0.index t (3 : Fin 4) * 128 + 1 * w.val = w.val; rw [e3]; omega

/-- The climate block at point t is rows t*8 .. t*8+7 of the 192-row climate array. -/
theorem iblk1_apply (c : Dev nD) (t : Fin cfg0.N) (p : Fin 8) (f : Fin 11) :
    (iblk m c 1 t : Vec Ideal S8x1x11 .f32) (ix3 p (0 : Fin 1) f)
      = (V m c main_v12 : S192x1x11.Idx → Elt Ideal .f32) (ix3 (Cert.Fuse.rowOf (pt t) p) (0 : Fin 1) f) := by
  obtain ⟨-, -, -, -, e0, e1, e2, -⟩ := idx_facts t
  unfold iblk
  rw [View.read_apply]
  show (V m c main_v12 : S192x1x11.Idx → Elt Ideal .f32) _ = _
  refine congrArg (V m c main_v12 : S192x1x11.Idx → Elt Ideal .f32) (funext fun a => Fin.ext ?_)
  match a with
  | ⟨0, _⟩ => show win0_1.index t (0 : Fin 3) * 8 + 1 * p.val = t.val * 8 + p.val; rw [e0]; omega
  | ⟨1, _⟩ => show win0_1.index t (1 : Fin 3) * 1 + 1 * 0 = 0; rw [e1]
  | ⟨2, _⟩ => show win0_1.index t (2 : Fin 3) * 11 + 1 * f.val = f.val; rw [e2]; omega

/-- The 192-row result array: satellite channels then climate features, row by row. -/
abbrev rows (c : Dev nD) : S192x21x128x128.Idx → Elt Ideal .f32 :=
  Cert.Fuse.stacked (F := Ideal) (N := 192) (V m c main_v11) (V m c main_v12)

/-- What point t writes back is block t of the 192-row result array. -/
theorem flushed_eq (c : Dev nD) (t : Fin cfg0.N) :
    (dats m 0 c).flushed 2 t = ((cfg0.win 2).blk t).view.read (Elt Ideal) (rows m c) := by
  show (cfg0.win 2).cut (grid0.coords t) ((dats m 0 c).after 2 t) = _
  rw [after0_2, Cert.KernelIdeal.Block.out_eq (F := Ideal) (iblk m c 0 t) (iblk m c 1 t)]
  obtain ⟨-, -, -, -, -, -, -, e0, e1, e2, e3⟩ := idx_facts t
  have key : ∀ j : S8x21x128x128.Idx,
      Cert.Fuse.stacked (F := Ideal) (N := 8) (iblk m c 0 t) (iblk m c 1 t) j
        = rows m c (((cfg0.win 2).blk t).view.emb j) := by
    intro j
    obtain ⟨p, ch, h, w, rfl⟩ : ∃ (p : Fin 8) (ch : Fin 21) (h w : Fin 128), j = ix4 p ch h w :=
      ⟨j 0, j 1, j 2, j 3, eq_ix4 j⟩
    have hemb : ((cfg0.win 2).blk t).view.emb (ix4 p ch h w) = (ix4 (Cert.Fuse.rowOf (pt t) p) ch h w : S192x21x128x128.Idx) := by
      funext a
      apply Fin.ext
      match a with
      | ⟨0, _⟩ => show win0_2.index t (0 : Fin 4) * 8 + 1 * p.val = t.val * 8 + p.val; rw [e0]; omega
      | ⟨1, _⟩ => show win0_2.index t (1 : Fin 4) * 21 + 1 * ch.val = ch.val; rw [e1]; omega
      | ⟨2, _⟩ => show win0_2.index t (2 : Fin 4) * 128 + 1 * h.val = h.val; rw [e2]; omega
      | ⟨3, _⟩ => show win0_2.index t (3 : Fin 4) * 128 + 1 * w.val = w.val; rw [e3]; omega
    rw [hemb]
    show Cert.Fuse.stackedAt (F := Ideal) (N := 8) (iblk m c 0 t) (iblk m c 1 t) p ch h w
      = Cert.Fuse.stackedAt (F := Ideal) (N := 192) (V m c main_v11) (V m c main_v12) (Cert.Fuse.rowOf (pt t) p) ch h w
    exact Cert.Fuse.stackedAt_block (F := Ideal) (X0 := (V m c main_v11 : S192x10x128x128.Idx → Elt Ideal .f32))
      (X1 := (V m c main_v12 : S192x1x11.Idx → Elt Ideal .f32)) (x0 := (iblk m c 0 t : Vec Ideal S8x10x128x128 .f32))
      (x1 := (iblk m c 1 t : Vec Ideal S8x1x11 .f32)) (k := pt t) (h0 := iblk0_apply m c t) (h1 := iblk1_apply m c t) p ch h w
  funext j
  exact key j

/-- An index of the result array is in point t's block iff each coordinate is in the block's range on its axis. -/
theorem mem_blk (t : Fin cfg0.N) (i : S192x21x128x128.Idx) :
    i ∈ ((cfg0.win 2).blk t).view.set ↔ ∀ a : Fin 4, win0_2.index t a * S8x21x128x128.size a ≤ (i a).val ∧ (i a).val < win0_2.index t a * S8x21x128x128.size a + S8x21x128x128.size a := by
  show i ∈ ((View.whole main_v13).slice (win0_2.rect t)).set ↔ _
  rw [View.set_slice_whole, Rect.mem_set_unit]
  exact Iff.rfl

/-- Row r of the result array is written by point r / 8. -/
theorem cover (i : S192x21x128x128.Idx) :
    ∃ t : Fin cfg0.N, (cfg0.win 2).flush t = true ∧ i ∈ ((cfg0.win 2).blk t).view.set := by
  have hi0 : (i 0).val < 192 := (i 0).isLt
  have hi1 : (i 1).val < 21 := (i 1).isLt
  have hi2 : (i 2).val < 128 := (i 2).isLt
  have hi3 : (i 3).val < 128 := (i 3).isLt
  have hN : cfg0.N = 24 := N_0
  obtain ⟨t, ht⟩ : ∃ t : Fin cfg0.N, t.val = (i 0).val / 8 := ⟨⟨(i 0).val / 8, by rw [hN]; omega⟩, rfl⟩
  obtain ⟨-, -, -, -, -, -, -, e0, e1, e2, e3⟩ := idx_facts t
  refine ⟨t, flush0_2 t, ?_⟩
  rw [mem_blk]
  intro a
  match a with
  | ⟨0, _⟩ => show win0_2.index t (0 : Fin 4) * 8 ≤ (i 0).val ∧ (i 0).val < win0_2.index t (0 : Fin 4) * 8 + 8; rw [e0, ht]; omega
  | ⟨1, _⟩ => show win0_2.index t (1 : Fin 4) * 21 ≤ (i 1).val ∧ (i 1).val < win0_2.index t (1 : Fin 4) * 21 + 21; rw [e1]; omega
  | ⟨2, _⟩ => show win0_2.index t (2 : Fin 4) * 128 ≤ (i 2).val ∧ (i 2).val < win0_2.index t (2 : Fin 4) * 128 + 128; rw [e2]; omega
  | ⟨3, _⟩ => show win0_2.index t (3 : Fin 4) * 128 ≤ (i 3).val ∧ (i 3).val < win0_2.index t (3 : Fin 4) * 128 + 128; rw [e3]; omega

/-- The result array after the region: the 192-row stack of the two input arrays. -/
theorem final (c : Dev nD) : (dats m 0 c).arrAt 2 cfg0.N = rows m c :=
  (dats m 0 c).arrAt_eq_of_cover 2 (rows m c) (fun t _ => flushed_eq m c t) cover

end Cert.KernelIdeal.Stack

end
-- ==== Proof.KRun.lean ====
/-
  The kernel's result.  After the region the 192-row output array is the stack of the two input arrays (Stack.final); the
  inputs are the reshaped arguments (HostSide); the program's last operation reads the 192 rows back as [8,24,21,128,128].
  Row b*24 + t is the pair (b, t), so the result is the fused array of the satellite tensor and the matched climate rows
  (Cert.Fuse.unstack_eq).  The frame run, with this equation for the result buffer, is the kernel's run.
-/
import proofs.«152365_j56023553409154_2_alg».proof.Proof.Gen.KernelIdeal.Frame
import proofs.«152365_j56023553409154_2_alg».proof.Proof.Spec
import proofs.«152365_j56023553409154_2_alg».proof.Proof.Rows
import proofs.«152365_j56023553409154_2_alg».proof.Proof.KHost
import proofs.«152365_j56023553409154_2_alg».proof.Proof.KStack
import Idealize.ShloMosaic.Lib.StableHlo.Run
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- The matched climate rows of the launched arguments. -/
abbrev climOf (c : Dev nD) : S8x24x11.Idx → Elt Ideal .f32 :=
  Cert.Fuse.clim (F := Ideal) (m ((c : Thread nD τ).loc main_arg1)) (m ((c : Thread nD τ).loc main_arg2)) (m ((c : Thread nD τ).loc main_arg3))

/-- The region's satellite input is the satellite argument as 192 rows. -/
theorem sat_rows (c : Dev nD) :
    V m c main_v11 = shapeCast S192x10x128x128 (m ((c : Thread nD τ).loc main_arg0)) shapeCasts_S8x24x10x128x128_S192x10x128x128 :=
  HostSide.satRows_eq (F := Ideal) (fun b => m (c, b))

/-- The region's climate input is the matched climate rows as 192 rows. -/
theorem clim_rows (c : Dev nD) :
    V m c main_v12 = shapeCast S192x1x11 (climOf m c) shapeCasts_S8x24x11_S192x1x11 :=
  HostSide.climRows_eq (F := Ideal) (fun b => m (c, b))

/-- The result buffer after the whole program: the fused array of the arguments. -/
theorem result_eq (c : Dev nD) :
    Pipeline.afterTail₀ cfgs (dats m) 0 (V0 m) [hostOps1] c main_v14
      = Cert.Fuse.fused (F := Ideal) (m ((c : Thread nD τ).loc main_arg0)) (climOf m c) := by
  have hw : Pipeline.withArrays (cfgs 0).spec c (V0 m c) (fun w => (dats m 0 c).arrAt w (cfgs 0).N) (Proc.devRef .tc main_v13)
      = Stack.rows m c :=
    (Pipeline.withArrays_arr spec0 launch0.win.arr_inj c _ _ 2).trans (Stack.final m c)
  have hr : Stack.rows m c = Cert.Fuse.stacked (F := Ideal) (N := 192)
      (shapeCast S192x10x128x128 (m ((c : Thread nD τ).loc main_arg0)) shapeCasts_S8x24x10x128x128_S192x10x128x128)
      (shapeCast S192x1x11 (climOf m c) shapeCasts_S8x24x11_S192x1x11) := by
    unfold Stack.rows
    rw [sat_rows m c, clim_rows m c]
  unfold Pipeline.afterTail₀
  show StableHlo.after hostOps1 _ (Proc.devRef .tc main_v14) = _
  after_results
  rw [hw, hr]
  exact Cert.Fuse.unstack_eq _ _ _ _ _

/-- The kernel's run: the result buffer ends at the fused array of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v14) = Cert.Fuse.fused (F := Ideal) (m ((c.tc : Thread nD τ).loc main_arg0))
          (Cert.Fuse.clim (F := Ideal) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Result

end
-- ==== Proof.RefRun.lean ====
/-
  The reference program as a straight line of operations, and its final memory.

  The reference calls three local functions (the arg-max of the match flags, the row selection, the padded
  select).  A call means the callee's body on the operands, so with the bodies written at their call sites the
  whole program is a list of 43 operations, each writing one buffer of its own.  Running it leaves every buffer
  at the fold of those operations over the launch contents.

  The fold is read at the result buffer: the first 40 operations compute the matched climate row of each
  (b, t) — the term "clim" of the specification, operation by operation — and the last three place it behind the
  satellite channels: the row [8, 24, 11] gains two unit axes, is repeated over the 128 x 128 pixels, and is
  concatenated after the 10 satellite channels along the channel axis.  No operation writes an argument buffer,
  so the arguments end as they began.
-/
import proofs.«152365_j56023553409154_2_alg».proof.ReferenceIdeal
import proofs.«152365_j56023553409154_2_alg».proof.Proof.Gen.ReferenceIdeal
import proofs.«152365_j56023553409154_2_alg».proof.Proof.Spec
import Idealize.ShloMosaic.Lib.StableHlo.Run
import Idealize.ShloMosaic.Lib.Pipeline.Value
import Idealize.ShloMosaic.Lib.ValueIdx

noncomputable section

namespace Cert.ReferenceIdeal.RefRun

open Idealize.ShloMosaic Idealize.ShloMosaic.TcCoe Idealize.ShloMosaic.StableHlo Idealize.SL.Sem
open Cert.ReferenceIdeal Cert.ReferenceIdeal.Gen

variable {F : FTy → Type} [FloatOps F]

/-- The program's 43 operations in order, the three calls unfolded: five of the program's own (the two date
    tensors broadcast against each other and compared), five of the arg-max (day numbers, the two initial values,
    one line per result of the two-operand reduction), three of its own (whether any day matched, the found day
    as a column), twenty-two of the row selection (index normalisation, range check, the gather, the select
    against the not-a-number word), two of its own (the any-match flag as a column, the pad value), three of the
    padded select, and the last three that lay the row out behind the satellite channels. -/
abbrev ops : List (HloOp τ sig (Elt F)) :=
  [ unary main_arg1 main_v0 (broadcastInDim S8x24x1 ![0, 1] bcast_S8x24_S8x24x1_0_1 : (⟨S8x24, .i32⟩ : BufTy).Contents (Elt F) → (⟨S8x24x1, .i32⟩ : BufTy).Contents (Elt F)),
    unary main_arg3 main_v1 (broadcastInDim S8x1x365 ![0, 2] bcast_S8x365_S8x1x365_0_2 : (⟨S8x365, .i32⟩ : BufTy).Contents (Elt F) → (⟨S8x1x365, .i32⟩ : BufTy).Contents (Elt F)),
    unary main_v0 main_v2 (broadcastInDim S8x24x365 ![0, 1, 2] bcast_S8x24x1_S8x24x365_0_1_2 : (⟨S8x24x1, .i32⟩ : BufTy).Contents (Elt F) → (⟨S8x24x365, .i32⟩ : BufTy).Contents (Elt F)),
    unary main_v1 main_v3 (broadcastInDim S8x24x365 ![0, 1, 2] bcast_S8x1x365_S8x24x365_0_1_2 : (⟨S8x1x365, .i32⟩ : BufTy).Contents (Elt F) → (⟨S8x24x365, .i32⟩ : BufTy).Contents (Elt F)),
    binary main_v2 main_v3 main_v4 (cmpi .eq : (⟨S8x24x365, .i32⟩ : BufTy).Contents (Elt F) → (⟨S8x24x365, .i32⟩ : BufTy).Contents (Elt F) → (⟨S8x24x365, .i1⟩ : BufTy).Contents (Elt F)),
    TRef.nullary main_call0.v0 (iotaInDim S8x24x365 32 2),
    TRef.nullary main_call0.c (constantI S_ 1 0#1),
    TRef.nullary main_call0.c_0 (constantI S_ 32 0#32),
    TRef.quaternary (.of main_v4 : TRef sig ⟨S8x24x365, .i1⟩) main_call0.v0 main_call0.c main_call0.c_0 main_call0.v1_0 (fun x y u v j => (Host.reduce2 reducer_argmax_i1_i32 x y u v reducesTo_S8x24x365_S8x24_d2 h_S_ j).1),
    TRef.quaternary (.of main_v4 : TRef sig ⟨S8x24x365, .i1⟩) main_call0.v0 main_call0.c main_call0.c_0 main_call0.v1_1 (fun x y u v j => (Host.reduce2 reducer_argmax_i1_i32 x y u v reducesTo_S8x24x365_S8x24_d2 h_S_ j).2),
    nullary main_c (constantI S_ 1 0#1),
    binary main_v4 main_c main_v6 ((fun x v => Host.reduce IntOp.ori x v reducesTo_S8x24x365_S8x24_d2 h_S_) : (⟨S8x24x365, .i1⟩ : BufTy).Contents (Elt F) → (⟨S_, .i1⟩ : BufTy).Contents (Elt F) → (⟨S8x24, .i1⟩ : BufTy).Contents (Elt F)),
    unary main_v5 main_v7 (broadcastInDim S8x24x1 ![0, 1] bcast_S8x24_S8x24x1_0_1 : (⟨S8x24, .i32⟩ : BufTy).Contents (Elt F) → (⟨S8x24x1, .i32⟩ : BufTy).Contents (Elt F)),
    TRef.nullary main_call1.c (constantI S_ 32 0#32),
    TRef.unary main_call1.c main_call1.v0 (broadcastInDim S8x24x1 ![] bcast_S_S8x24x1),
    TRef.binary (.of main_v7 : TRef sig ⟨S8x24x1, .i32⟩) main_call1.v0 main_call1.v1 (cmpi .slt),
    TRef.nullary main_call1.c_0 (constantI S_ 32 365#32),
    TRef.unary main_call1.c_0 main_call1.v2 (broadcastInDim S8x24x1 ![] bcast_S_S8x24x1),
    TRef.binary (.of main_v7 : TRef sig ⟨S8x24x1, .i32⟩) main_call1.v2 main_call1.v3 addi,
    TRef.ternary main_call1.v1 main_call1.v3 (.of main_v7 : TRef sig ⟨S8x24x1, .i32⟩) main_call1.v4 select,
    TRef.nullary main_call1.c_1 (constantI S1 32 364#32),
    TRef.nullary main_call1.c_2 (constantI S_ 32 0#32),
    TRef.unary main_call1.c_2 main_call1.v5 (broadcastInDim S8x24x1 ![] bcast_S_S8x24x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S8x24x1 ![0, 1, 2] bcast_S1x1x1_S8x24x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S8x24x1_S8x24_d2 h_S_),
    TRef.binary (.of main_arg2 : TRef sig ⟨S8x365x11, .f32⟩) main_call1.v4 main_call1.v12 (fun x i => Host.gather gather_S8x365x11_S8x24x1_S8x24x11_2_1_0_0_1_2_1111 x i),
    TRef.unary main_call1.v11 main_call1.v13 (broadcastInDim S8x24x11 ![0, 1] bcast_S8x24_S8x24x11_0_1),
    TRef.nullary main_call1.cst (constant S_ .f32 0x7FC00000#32),
    TRef.unary main_call1.cst main_call1.v14 (broadcastInDim S8x24x11 ![] bcast_S_S8x24x11),
    TRef.ternary main_call1.v13 main_call1.v12 main_call1.v14 main_call1.v15 select,
    unary main_v6 main_v9 (broadcastInDim S8x24x1 ![0, 1] bcast_S8x24_S8x24x1_0_1 : (⟨S8x24, .i1⟩ : BufTy).Contents (Elt F) → (⟨S8x24x1, .i1⟩ : BufTy).Contents (Elt F)),
    nullary main_cst (constant S_ .f32 0xC47A0000#32),
    TRef.unary (.of main_v9 : TRef sig ⟨S8x24x1, .i1⟩) main_call2.v0 (broadcastInDim S8x24x11 ![0, 1, 2] bcast_S8x24x1_S8x24x11_0_1_2),
    TRef.unary (.of main_cst : TRef sig ⟨S_, .f32⟩) main_call2.v1 (broadcastInDim S8x24x11 ![] bcast_S_S8x24x11),
    TRef.ternary main_call2.v0 (.of main_v8 : TRef sig ⟨S8x24x11, .f32⟩) main_call2.v1 main_call2.v2 select,
    unary main_v10 main_v11 (broadcastInDim S8x24x11x1x1 ![0, 1, 2] bcast_S8x24x11_S8x24x11x1x1_0_1_2 : (⟨S8x24x11, .f32⟩ : BufTy).Contents (Elt F) → (⟨S8x24x11x1x1, .f32⟩ : BufTy).Contents (Elt F)),
    unary main_v11 main_v12 (broadcastInDim S8x24x11x128x128 ![0, 1, 2, 3, 4] bcast_S8x24x11x1x1_S8x24x11x128x128_0_1_2_3_4 : (⟨S8x24x11x1x1, .f32⟩ : BufTy).Contents (Elt F) → (⟨S8x24x11x128x128, .f32⟩ : BufTy).Contents (Elt F)),
    binary main_arg0 main_v12 main_v13 ((fun a b => concatenate S8x24x21x128x128 2 [⟨S8x24x10x128x128, a⟩, ⟨S8x24x11x128x128, b⟩] concatenates_S8x24x10x128x128_S8x24x11x128x128_S8x24x21x128x128_d2) : (⟨S8x24x10x128x128, .f32⟩ : BufTy).Contents (Elt F) → (⟨S8x24x11x128x128, .f32⟩ : BufTy).Contents (Elt F) → (⟨S8x24x21x128x128, .f32⟩ : BufTy).Contents (Elt F)) ]

-- forty-three binds re-associated: the rewrite under the chain recurses once per statement
set_option maxRecDepth 1024 in
/-- The program is that straight line: with the three bodies unfolded at their calls and the calls' records at
    their fields, both sides are one chain of single-operation steps once sequencing is reassociated. -/
theorem main_eq (c : Dev nD) : main (F := F) c = seq ops := by
  simp only [main, fn_argmax.body, fn_take_along_axis.body, fn_where.body, seq, bind_assoc, pure_bind]

/-- The last three operations as one function of the satellite tensor and the matched climate rows: the rows
    [8, 24, 11] gain two unit axes, are repeated over the 128 x 128 pixels, and follow the 10 satellite channels
    along the channel axis. -/
def refTail (sat : FVec F S8x24x10x128x128 .f32) (cv : FVec F S8x24x11 .f32) : FVec F S8x24x21x128x128 .f32 :=
  concatenate S8x24x21x128x128 2
    [⟨S8x24x10x128x128, sat⟩,
      ⟨S8x24x11x128x128,
        broadcastInDim S8x24x11x128x128 ![0, 1, 2, 3, 4] bcast_S8x24x11x1x1_S8x24x11x128x128_0_1_2_3_4
          (broadcastInDim S8x24x11x1x1 ![0, 1, 2] bcast_S8x24x11_S8x24x11x1x1_0_1_2 cv)⟩]
    concatenates_S8x24x10x128x128_S8x24x11x128x128_S8x24x21x128x128_d2

attribute [local irreducible] Host.reduce Host.reduce2 Host.gather in
set_option maxRecDepth 8192 in
set_option maxHeartbeats 1000000 in
/-- The fold at the buffer of the padded select: the first 40 operations are, one by one, the operations of the
    matched climate row over the three small arguments (the last three write other buffers).  Each operation's
    result is read at the buffer it writes and passed over elsewhere, every shared intermediate visited once; what
    remains is the same term on both sides.  The two reductions and the gather are kept folded meanwhile, the
    equation never looks inside them. -/
theorem v10_eq (V : Valuation τ sig (Elt F)) :
    after ops V (Proc.devRef .tc main_v10)
      = Cert.Fuse.clim (V (Proc.devRef .tc main_arg1)) (V (Proc.devRef .tc main_arg2)) (V (Proc.devRef .tc main_arg3)) := by
  unfold ops
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-- The last three operations: the rows gain two unit axes, are repeated over the pixels, and follow the satellite
    channels. -/
abbrev tailOps : List (HloOp τ sig (Elt F)) :=
  [ unary main_v10 main_v11 (broadcastInDim S8x24x11x1x1 ![0, 1, 2] bcast_S8x24x11_S8x24x11x1x1_0_1_2 : (⟨S8x24x11, .f32⟩ : BufTy).Contents (Elt F) → (⟨S8x24x11x1x1, .f32⟩ : BufTy).Contents (Elt F)),
    unary main_v11 main_v12 (broadcastInDim S8x24x11x128x128 ![0, 1, 2, 3, 4] bcast_S8x24x11x1x1_S8x24x11x128x128_0_1_2_3_4 : (⟨S8x24x11x1x1, .f32⟩ : BufTy).Contents (Elt F) → (⟨S8x24x11x128x128, .f32⟩ : BufTy).Contents (Elt F)),
    binary main_arg0 main_v12 main_v13 ((fun a b => concatenate S8x24x21x128x128 2 [⟨S8x24x10x128x128, a⟩, ⟨S8x24x11x128x128, b⟩] concatenates_S8x24x10x128x128_S8x24x11x128x128_S8x24x21x128x128_d2) : (⟨S8x24x10x128x128, .f32⟩ : BufTy).Contents (Elt F) → (⟨S8x24x11x128x128, .f32⟩ : BufTy).Contents (Elt F) → (⟨S8x24x21x128x128, .f32⟩ : BufTy).Contents (Elt F)) ]

/-- The 43 operations are the first 40 followed by the last three. -/
theorem ops_split : (ops : List (HloOp τ sig (Elt F))) = List.take 40 ops ++ tailOps := rfl

/-- Operations run one list after another fold one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- From any contents G the last three operations leave, at the result buffer, "refTail" of G's satellite buffer
    and G's buffer of the padded select … -/
theorem tail_out (G : Valuation τ sig (Elt F)) :
    after tailOps G (Proc.devRef .tc main_v13) = refTail (G (Proc.devRef .tc main_arg0)) (G (Proc.devRef .tc main_v10)) := by
  simp only [after_cons, after_nil]
  rfl

/-- … and write neither the buffer of the padded select … -/
theorem tail_v10 (G : Valuation τ sig (Elt F)) :
    after tailOps G (Proc.devRef .tc main_v10) = G (Proc.devRef .tc main_v10) := by
  simp only [after_cons, after_nil]
  rfl

/-- … nor the satellite argument. -/
theorem tail_arg0 (G : Valuation τ sig (Elt F)) :
    after tailOps G (Proc.devRef .tc main_arg0) = G (Proc.devRef .tc main_arg0) := by
  simp only [after_cons, after_nil]
  rfl

/-- The fold at the result buffer: the last three operations over the contents the first 40 leave, of which they
    read the satellite argument, as launched, and the buffer of the padded select, the matched climate rows. -/
theorem out_eq (V : Valuation τ sig (Elt F)) :
    after ops V (Proc.devRef .tc main_v13)
      = refTail (V (Proc.devRef .tc main_arg0))
          (Cert.Fuse.clim (V (Proc.devRef .tc main_arg1)) (V (Proc.devRef .tc main_arg2)) (V (Proc.devRef .tc main_arg3))) := by
  have hs : after ops V = after tailOps (after (List.take 40 ops) V) :=
    (congrArg (fun l => after l V) ops_split).trans (after_append _ _ V)
  have h10 : after (List.take 40 ops) V (Proc.devRef .tc main_v10)
      = Cert.Fuse.clim (V (Proc.devRef .tc main_arg1)) (V (Proc.devRef .tc main_arg2)) (V (Proc.devRef .tc main_arg3)) :=
    ((tail_v10 _).symm.trans (congrFun hs.symm _)).trans (v10_eq V)
  have h0 : after (List.take 40 ops) V (Proc.devRef .tc main_arg0) = V (Proc.devRef .tc main_arg0) :=
    ((tail_arg0 _).symm.trans (congrFun hs.symm _)).trans (arg0_eq V)
  rw [congrFun hs _, tail_out, h10, h0]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub ..,
    nullary_bufs_sub .., nullary_bufs_sub .., nullary_bufs_sub .., quaternary_bufs_sub .., quaternary_bufs_sub ..,
    nullary_bufs_sub .., binary_bufs_sub .., unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    unary_bufs_sub .., nullary_bufs_sub ..,
    unary_bufs_sub .., unary_bufs_sub .., ternary_bufs_sub ..,
    unary_bufs_sub .., unary_bufs_sub .., binary_bufs_sub ..⟩

/-- From any memory with zero counters every weakly fair execution of the program terminates, and every final
    state has each buffer at the fold of the 43 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result as the specification's fused array.

  The program's last three operations place the matched climate rows behind the satellite channels.  Read at an
  index (b, t, ch, h, w): for ch < 10 the concatenation reads its first piece, the satellite tensor, at the same
  coordinates; for ch >= 10 it reads its second piece at channel ch - 10, which is the climate row repeated over
  the pixels, so the two broadcasts drop the pixel coordinates and leave entry (b, t, ch - 10) of the rows.  That is
  the specification's "fused" entry by entry.  With the run of the straight line this gives the final memory of
  the reference in the specification's terms.
-/
import proofs.«152365_j56023553409154_2_alg».proof.Proof.RefRun

noncomputable section

namespace Cert.ReferenceIdeal.RefValue

open Idealize.ShloMosaic Idealize.ShloMosaic.TcCoe Idealize.ShloMosaic.StableHlo Idealize.SL.Sem
open Idealize.ShloMosaic.ValueIdx
open Cert.ReferenceIdeal Cert.ReferenceIdeal.Gen

/-- The satellite channels followed by the repeated climate rows is the fused array, entry by entry. -/
theorem refTail_eq (sat : FVec Ideal S8x24x10x128x128 .f32) (cv : FVec Ideal S8x24x11 .f32) :
    RefRun.refTail sat cv = Cert.Fuse.fused sat cv := by
  funext i
  obtain ⟨b, t, ch, h, w, rfl⟩ : ∃ (b : Fin 8) (t : Fin 24) (ch : Fin 21) (h w : Fin 128), i = ix5 b t ch h w :=
    ⟨i 0, i 1, i 2, i 3, i 4, eq_ix5 i⟩
  rw [Cert.Fuse.fused_ix]
  unfold Cert.Fuse.fusedAt RefRun.refTail
  by_cases hc : ch.val < 10
  · -- a satellite channel: the first piece at the same coordinates
    rw [dif_pos hc]
    refine concatenate_pair_apply_left (t := S8x24x21x128x128) (s₁ := S8x24x10x128x128) (s₂ := S8x24x11x128x128)
      (2 : Fin 5) sat _ _ (ix5 b t ch h w) rfl
      (ix5 b t (⟨ch.val, hc⟩ : Fin 10) h w) ?_
    intro a
    match a with
    | ⟨0, _⟩ => rfl
    | ⟨1, _⟩ => rfl
    | ⟨2, _⟩ => rfl
    | ⟨3, _⟩ => rfl
    | ⟨4, _⟩ => rfl
  · -- a climate channel: the second piece at channel ch - 10, then the two broadcasts
    rw [dif_neg hc]
    have hlt : ch.val - 10 < 11 := by have := ch.isLt; omega
    refine (concatenate_pair_apply_right (t := S8x24x21x128x128) (s₁ := S8x24x10x128x128) (s₂ := S8x24x11x128x128)
      (2 : Fin 5) sat _ _ (ix5 b t ch h w) rfl rfl
      (ix5 b t (⟨ch.val - 10, hlt⟩ : Fin 11) h w) ?_ ?_).trans ?_
    · intro a ha
      match a, ha with
      | ⟨0, _⟩, _ => rfl
      | ⟨1, _⟩, _ => rfl
      | ⟨2, _⟩, ha => exact absurd rfl ha
      | ⟨3, _⟩, _ => rfl
      | ⟨4, _⟩, _ => rfl
    · show ch.val - 10 + 10 = ch.val
      omega
    · refine (broadcastInDim_apply _ _ _ (ix5 b t (⟨ch.val - 10, hlt⟩ : Fin 11) h w)
        (ix5 b t (⟨ch.val - 10, hlt⟩ : Fin 11) (0 : Fin 1) (0 : Fin 1)) ?_).trans ?_
      · intro a
        match a with
        | ⟨0, _⟩ => rfl
        | ⟨1, _⟩ => rfl
        | ⟨2, _⟩ => rfl
        | ⟨3, _⟩ => rfl
        | ⟨4, _⟩ => rfl
      · refine broadcastInDim_apply _ _ _ (ix5 b t (⟨ch.val - 10, hlt⟩ : Fin 11) (0 : Fin 1) (0 : Fin 1))
          (ix3 b t (⟨ch.val - 10, hlt⟩ : Fin 11)) ?_
        intro a
        match a with
        | ⟨0, _⟩ => rfl
        | ⟨1, _⟩ => rfl
        | ⟨2, _⟩ => rfl

/-- From any memory with zero counters every weakly fair execution of the reference terminates, and in every
    final state the result buffer holds the fused array of the satellite argument and the matched climate rows of
    the three small arguments, all four argument buffers being as at the launch. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
          = Cert.Fuse.fused (F := Ideal) (m ((c.tc : Thread nD τ).loc main_arg0))
              (Cert.Fuse.clim (F := Ideal) (m ((c.tc : Thread nD τ).loc main_arg1))
                (m ((c.tc : Thread nD τ).loc main_arg2)) (m ((c.tc : Thread nD τ).loc main_arg3)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (defs (F := Ideal)) _ _).mono
    (fun _ h c =>
      ⟨(h c main_v13).trans ((RefRun.out_eq _).trans (refTail_eq _ _)),
        (h c main_arg0).trans (RefRun.arg0_eq _),
        (h c main_arg1).trans (RefRun.arg1_eq _),
        (h c main_arg2).trans (RefRun.arg2_eq _),
        (h c main_arg3).trans (RefRun.arg3_eq _)⟩)
    (RefRun.run_main m ρ)

end Cert.ReferenceIdeal.RefValue

end
-- ==== Proof.lean ====
/-
  The kernel and its reference compute the same array on the extended reals.

  Both programs first match every satellite acquisition date to the first climate day with the same date and take that
  day's row of 11 climate features (the pad value -1000 when no day matches): the same operations on the same three
  arguments, carried as one term (Cert.Fuse.clim) that is never opened.  The result has 21 channels per (b, t): the 10
  satellite channels at each pixel, then the 11 matched climate features, each constant over the 128 x 128 pixels
  (Cert.Fuse.fused).

  The reference builds it by broadcasting the climate rows over the pixels and concatenating along the channel axis.
  The kernel lays the two inputs out as 192 = 8 * 24 rows, and in 24 grid steps of 8 rows copies the satellite channels
  and broadcasts the climate features into a [192, 21, 128, 128] array, which is read back as [8, 24, 21, 128, 128]; row
  b * 24 + t is the pair (b, t).  No arithmetic is done on the floating-point values, so the equality needs no finiteness.

  The three frames are the generated frame proofs (the reference's is its run with the result dropped); the idealization
  rewrote nothing, so its conjunct is trivial; the value claim pairs the kernel's run (Cert.KernelIdeal.Result.run) with
  the reference's run (Cert.ReferenceIdeal.RefValue.run), both stated with the same fused term of the arguments.
-/
import proofs.«152365_j56023553409154_2_alg».proof.Defs
import proofs.«152365_j56023553409154_2_alg».proof.Proof.Gen.Kernel
import proofs.«152365_j56023553409154_2_alg».proof.Proof.Gen.Kernel.Skeleton
import proofs.«152365_j56023553409154_2_alg».proof.Proof.Gen.Kernel.Launch
import proofs.«152365_j56023553409154_2_alg».proof.Proof.Gen.Kernel.Points
import proofs.«152365_j56023553409154_2_alg».proof.Proof.Gen.Kernel.Frame
import proofs.«152365_j56023553409154_2_alg».proof.Proof.Gen.KernelIdeal
import proofs.«152365_j56023553409154_2_alg».proof.Proof.Gen.KernelIdeal.Skeleton
import proofs.«152365_j56023553409154_2_alg».proof.Proof.Gen.KernelIdeal.Launch
import proofs.«152365_j56023553409154_2_alg».proof.Proof.Gen.KernelIdeal.Points
import proofs.«152365_j56023553409154_2_alg».proof.Proof.Gen.KernelIdeal.Frame
import proofs.«152365_j56023553409154_2_alg».proof.Proof.Gen.ReferenceIdeal
import proofs.«152365_j56023553409154_2_alg».proof.Proof.Gen.Pre_finite_inputs
import proofs.«152365_j56023553409154_2_alg».proof.Proof.KRun
import proofs.«152365_j56023553409154_2_alg».proof.Proof.RefValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result's equation dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both runs end with the result buffer at the fused array of their arguments; the arguments agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
